-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S4096x4096, .bf16⟩
  | .hbm, ⟨6, _⟩ => ⟨S8192x4096, .f32⟩
  | .hbm, ⟨7, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024, .f32⟩
  | .local _ .vmem, ⟨9, _⟩ => ⟨S1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x32x128, .f32⟩
  | .hbm, ⟨4, _⟩ => ⟨S4096x32x128, .f32⟩
  | .hbm, ⟨5, _⟩ => ⟨S_, .f32⟩
  | .hbm, ⟨6, _⟩ => ⟨S4096x32, .f32⟩
  | .hbm, ⟨7, _⟩ => ⟨S4096x32x1, .f32⟩
  | .hbm, ⟨8, _⟩ => ⟨S_, .f32⟩
  | .hbm, ⟨9, _⟩ => ⟨S4096x32x1, .f32⟩
  | .hbm, ⟨10, _⟩ => ⟨S4096x32x1, .f32⟩
  | .hbm, ⟨11, _⟩ => ⟨S_, .f32⟩
  | .hbm, ⟨12, _⟩ => ⟨S4096x32x1, .f32⟩
  | .hbm, ⟨13, _⟩ => ⟨S4096x32x1, .i1⟩
  | .hbm, ⟨14, _⟩ => ⟨S_, .f32⟩
  | .hbm, ⟨15, _⟩ => ⟨S_, .f32⟩
  | .hbm, ⟨16, _⟩ => ⟨S4096x32x1, .f32⟩
  | .hbm, ⟨17, _⟩ => ⟨S4096x32x1, .f32⟩
  | .hbm, ⟨18, _⟩ => ⟨S4096x32x128, .f32⟩
  | .hbm, ⟨19, _⟩ => ⟨S4096x32x128, .f32⟩
  | .hbm, ⟨20, _⟩ => ⟨S4096x32x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x32x128, .f32⟩
  | .hbm, ⟨25, _⟩ => ⟨S4096x32x128, .f32⟩
  | .hbm, ⟨26, _⟩ => ⟨S_, .f32⟩
  | .hbm, ⟨27, _⟩ => ⟨S4096x32x128, .f32⟩
  | .hbm, ⟨28, _⟩ => ⟨S4096x32x128, .f32⟩
  | .hbm, ⟨29, _⟩ => ⟨S4096x32x128, .f32⟩
  | .hbm, ⟨30, _⟩ => ⟨S4096x32x128, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4x2048x4096, .f32⟩
  | .hbm, ⟨35, _⟩ => ⟨S1x1x4096, .f32⟩
  | .hbm, ⟨36, _⟩ => ⟨S4x2048x4096, .f32⟩
  | .hbm, ⟨37, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_cst_4 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  shapeCasts_S4096x4096_S4096x32x128 : S4096x4096.ShapeCasts S4096x32x128
  reducesTo_S4096x32x128_S4096x32_d2 : S4096x32x128.ReducesTo [2] S4096x32
  h_S_ : 0 < S_.numel
  bcast_S4096x32_S4096x32x1_0_1 : S4096x32.BroadcastsInDim S4096x32x1 (![0, 1] : Fin 2 → Fin S4096x32x1.rank)
  bcast_S_S4096x32x1 : S_.BroadcastsInDim S4096x32x1 (![] : Fin 0 → Fin S4096x32x1.rank)
  bcast_S4096x32x1_S4096x32x128_0_1_2 : S4096x32x1.BroadcastsInDim S4096x32x128 (![0, 1, 2] : Fin 3 → Fin S4096x32x128.rank)
  bcast_S_S4096x32x128 : S_.BroadcastsInDim S4096x32x128 (![] : Fin 0 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelQuantRegion.lean ====
/-
  The first kernel region (the quantiser) run on one core, at any contents `V` of the core's buffers on entry.

  The grid has 16 points; at point `t` the body reads rows 256 t … 256 t + 255 of the weight (one whole
  block of 256 × 4096) and stores one block of the same shape into the result's staging buffer: the block is a
  function of the input block alone. Stated here: that function, the body's triple on whole staging buffers, and
  the region's proof data (what each staging buffer holds after the body at each point).
-/
import proofs.«153967_j84550726189331_1_alg».proof.Proof.Gen.Kernel.Launch
import proofs.«153967_j84550726189331_1_alg».proof.Proof.Gen.Kernel.Skeleton
import proofs.«153967_j84550726189331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 256 × 4096 block. -/
abbrev r0_0 : Rect S256x4096 := Rect.unit (s := S256x4096) ![0, 0] S256x4096.size inb_S256x4096_S256x4096_0_0

/-- What the body leaves in the result window's staging buffer, from the input block: its one store. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging buffers, the input's at contents `x0` and the result's at anything, runs to the
    continuation holding the input's as it was and the result's at `out0_1 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: the arrays as the region finds them; after the body at point `t` the input's
    buffer at its block and the result's at `out0_1` of it; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelMatmulShared.lean ====
/-
  The second kernel region (the tiled matrix product) on one core: what its three cases share.

  The grid is 8 × 4 × 4, the last axis the contraction's four slabs of 1024. At a point (i, j, k) the body first, if
  k = 0, clears the accumulator (a scratch buffer it keeps from point to point); then adds to it the product of the
  input's block (i, k) with the transpose of the weight's block (j, k); and last, if k = 3, stores the accumulator plus
  the bias block j into the result's staging buffer, which is written back at those points only. So there are three
  cases, by the position t of the point in row-major order: t ≡ 0 (mod 4), t ≡ 1, 2, and t ≡ 3. Stated here: the two
  conditions in closed form, where the result window is idle, and the invariant's scoped buffers one by one.
-/
import proofs.«153967_j84550726189331_1_alg».proof.Proof.Gen.Kernel.Launch
import proofs.«153967_j84550726189331_1_alg».proof.Proof.Gen.Kernel.Skeleton
import proofs.«153967_j84550726189331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (the bias block is
    fetched only when the middle coordinate moves and stays in place in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first condition (the contraction coordinate is 0), as the body computes it, -/
abbrev cond1_0 (i : grid1.Coords) : Prop := (Scalar.cmpi .ne (Scalar.extui (Scalar.cmpi .eq (BitVec.ofNat 32 (i 2).val) 0#32)) 0#32) = 1#1
/-- holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (the contraction coordinate is 3) -/
abbrev cond1_1 (i : grid1.Coords) : Prop := k1_cond2 i = 1#1
/-- holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the result window is idle, and not written back, exactly where the second
    condition fails. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the result window, through which its contents are stated. -/
abbrev VO1_3 : View sig .tc .vmem S1024x1024 .f32 := (Memref.whole cc1_stg3_0 : Memref sig .tc .vmem S1024x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, and the view its contents are stated through. -/
abbrev scM1_0 : Memref sig .tc .vmem S1024x1024 .f32 := Memref.whole cc1_scratch0
abbrev VS1_0 : View sig .tc .vmem S1024x1024 .f32 := scM1_0.view

/-- The scoped buffers of the core that this region neither stages through nor accumulates in (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KernelMatmulRunA.lean ====
/-
  The matrix-product kernel's body run whole on staging buffers, in the first case (the contraction coordinate is 0: the accumulator is cleared, then added to; nothing is stored into the result window).
  The statement carries, as its first two components, the lists of stores the result window's staging buffer and the
  accumulator end with.
-/
import proofs.«153967_j84550726189331_1_alg».proof.Proof.KernelMatmulShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the result window's staging buffer and in the accumulator, as lists of pieces (last
    first), with the proof that on whole staging buffers — the inputs' at their contents, the result's at contents handed back untouched,
    the accumulator at anything — the body runs to the continuation holding the inputs' as they were and each
    written buffer with its pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KernelMatmulRunB.lean ====
/-
  The matrix-product kernel's body run whole on staging buffers, in the middle case (the contraction coordinate is 1 or 2: the accumulator is added to; nothing is stored into the result window).
  The statement carries, as its first two components, the lists of stores the result window's staging buffer and the
  accumulator end with.
-/
import proofs.«153967_j84550726189331_1_alg».proof.Proof.KernelMatmulRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the result window's staging buffer and in the accumulator, as lists of pieces (last
    first), with the proof that on whole staging buffers — the inputs' at their contents, the result's at contents handed back untouched,
    the accumulator at what the point before left — the body runs to the continuation holding the inputs' as they were and each
    written buffer with its pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KernelMatmulRunC.lean ====
/-
  The matrix-product kernel's body run whole on staging buffers, in the last case (the contraction coordinate is 3: the accumulator is added to, and the accumulator plus the bias is stored into the result window).
  The statement carries, as its first two components, the lists of stores the result window's staging buffer and the
  accumulator end with.
-/
import proofs.«153967_j84550726189331_1_alg».proof.Proof.KernelMatmulRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the result window's staging buffer and in the accumulator, as lists of pieces (last
    first), with the proof that on whole staging buffers — the inputs' at their contents, the result's at anything,
    the accumulator at what the point before left — the body runs to the continuation holding the inputs' as they were and each
    written buffer with its pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KernelMatmulRegion.lean ====
/-
  The second kernel region (the tiled matrix product) on one core, at any contents `V` of the core's buffers on entry:
  what the accumulator and the result window's staging buffer hold after each point, the region's proof data with the
  accumulator carried from point to point in its invariant, and the body obligation.
-/
import proofs.«153967_j84550726189331_1_alg».proof.Proof.KernelMatmulRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: the run's pieces read back -/

/-- The first case stores nothing into the result window (idle there, and not written back): a placeholder nothing consults. -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- The first case's stores into the accumulator (the clearing, then the sum) cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What the first case leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- The middle case stores nothing into the result window either. -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What the middle case leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- The last case's one store into the result window covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What the last case leaves in the result window's staging buffer. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- What the last case leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- After the body at position `n`: the result window's staging buffer and the accumulator — the case the closed forms
    select at `n`, run at the point's staging buffers and input blocks, the accumulator entering at what position
    `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the other scoped buffers at anything, the accumulator at what the point before left in it, and the
    generator register at some state. -/
def PhiS (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the result's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd HS0 Hg]
        · isplitl [Ha Hb Hc Hd HS0]
          · unfold others1
            isplitl [Ha Hb Hc Hd]
            · isplitl [Ha]; · iexact Ha
              isplitl [Hb]; · iexact Hb
              isplitl [Hc]; · iexact Hc
              iexact Hd
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others1
  iintro ⟨⟨⟨Ha, Hb, Hc, Hd⟩, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KernelRun.lean ====
/-
  The whole program run on every core: the host lines before the kernels (the input recast as a matrix and narrowed), the
  quantiser region, the matrix-product region, and the host line after them (the result recast to the input's shape),
  composed in order. Stated here: what every unscoped buffer holds at each boundary, as a fold from the launch memory —
  a host stretch applies its operations, a region leaves each of its arrays at what its write-backs made of it and
  every other buffer as it found it —, and the run: every weakly fair execution terminates, and the final memory holds
  the last boundary's contents in every unscoped buffer.
-/
import proofs.«153967_j84550726189331_1_alg».proof.Proof.KernelQuantRegion
import proofs.«153967_j84550726189331_1_alg».proof.Proof.KernelMatmulRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host lines before the kernels (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host line behind the kernels: the program's end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of the program on
    the TensorCores terminates, nothing faulting, and in every final state every unscoped buffer holds the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KernelFrame.lean ====
/-
  The frame: no host line writes an argument array and no region writes one back (the weight and the bias are inputs of
  a region, the input array is read by a host line only), so the fold that gives every buffer's contents at the
  program's end walks back, at each argument, to the launch memory.
-/
import proofs.«153967_j84550726189331_1_alg».proof.Proof.KernelRun
import proofs.«153967_j84550726189331_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input array ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ Gen.hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ Gen.hostOps0_writes (by decide)
    _ = m ((c : Thread nD τ).loc main_arg0) := rfl

/-- The weight ends as launched: the first region only reads it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ Gen.hostOps0_writes (by decide)
    _ = m ((c : Thread nD τ).loc main_arg1) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ Gen.hostOps2_writes (by decide)
    _ = W2 m ρ c (Proc.devRef .tc main_arg1) := W3_of_ne m ρ c main_arg1 (by decide)
    _ = m ((c : Thread nD τ).loc main_arg1) := W2_main_arg1 m ρ c

/-- The bias at the second region's entry is the launched one, -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ Gen.hostOps0_writes (by decide)
    _ = m ((c : Thread nD τ).loc main_arg2) := rfl

/-- and ends as launched: the second region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ Gen.hostOps2_writes (by decide)
    _ = W2 m ρ c (Proc.devRef .tc main_arg2) := (W3_arr m ρ c 2).trans (((dat1 (V2 m ρ) c).arrAt_in 2 rfl _).trans (A_eq1 (V2 m ρ) c 2))
    _ = m ((c : Thread nD τ).loc main_arg2) := W2_main_arg2 m ρ c

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.Kernel.Hand

end
-- ==== Proof.KernelIdealQuantRegion.lean ====
/-
  The first kernel region (the quantiser) run on one core, at any contents `V` of the core's buffers on entry.

  The grid has 16 points; at point `t` the body reads rows 256 t … 256 t + 255 of the weight (one whole
  block of 256 × 4096) and stores one block of the same shape into the result's staging buffer: the block is a
  function of the input block alone. Stated here: that function, the body's triple on whole staging buffers, and
  the region's proof data (what each staging buffer holds after the body at each point).
-/
import proofs.«153967_j84550726189331_1_alg».proof.Proof.Gen.KernelIdeal.Launch
import proofs.«153967_j84550726189331_1_alg».proof.Proof.Gen.KernelIdeal.Skeleton
import proofs.«153967_j84550726189331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 256 × 4096 block. -/
abbrev r0_0 : Rect S256x4096 := Rect.unit (s := S256x4096) ![0, 0] S256x4096.size inb_S256x4096_S256x4096_0_0

/-- What the body leaves in the result window's staging buffer, from the input block: its one store. -/
def out0_1 (x0 : Vec F S256x4096 .f32) : Vec F S256x4096 .bf16 :=
  View.canon [⟨r0_0, k0_pay1 (View.ld x0 r0_0)⟩]

/-- The store covers the buffer. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging buffers, the input's at contents `x0` and the result's at anything, runs to the
    continuation holding the input's as it was and the result's at `out0_1 x0`. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: the arrays as the region finds them; after the body at point `t` the input's
    buffer at its block and the result's at `out0_1` of it; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealMatmulShared.lean ====
/-
  The second kernel region (the tiled matrix product) on one core: what its three cases share.

  The grid is 8 × 4 × 4, the last axis the contraction's four slabs of 1024. At a point (i, j, k) the body first, if
  k = 0, clears the accumulator (a scratch buffer it keeps from point to point); then adds to it the product of the
  input's block (i, k) with the transpose of the weight's block (j, k); and last, if k = 3, stores the accumulator plus
  the bias block j into the result's staging buffer, which is written back at those points only. So there are three
  cases, by the position t of the point in row-major order: t ≡ 0 (mod 4), t ≡ 1, 2, and t ≡ 3. Stated here: the two
  conditions in closed form, where the result window is idle, and the invariant's scoped buffers one by one.
-/
import proofs.«153967_j84550726189331_1_alg».proof.Proof.Gen.KernelIdeal.Launch
import proofs.«153967_j84550726189331_1_alg».proof.Proof.Gen.KernelIdeal.Skeleton
import proofs.«153967_j84550726189331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (the bias block is
    fetched only when the middle coordinate moves and stays in place in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The first condition (the contraction coordinate is 0), as the body computes it, -/
abbrev cond1_0 (i : grid1.Coords) : Prop := (Scalar.cmpi .ne (Scalar.extui (Scalar.cmpi .eq (BitVec.ofNat 32 (i 2).val) 0#32)) 0#32) = 1#1
/-- holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (the contraction coordinate is 3) -/
abbrev cond1_1 (i : grid1.Coords) : Prop := k1_cond2 i = 1#1
/-- holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the result window is idle, and not written back, exactly where the second
    condition fails. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- One staging buffer of the result window, through which its contents are stated. -/
abbrev VO1_3 : View sig .tc .vmem S1024x1024 .f32 := (Memref.whole cc1_stg3_0 : Memref sig .tc .vmem S1024x1024 .f32).view
/-- Each window's current staging memref at point `t`, as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, and the view its contents are stated through. -/
abbrev scM1_0 : Memref sig .tc .vmem S1024x1024 .f32 := Memref.whole cc1_scratch0
abbrev VS1_0 : View sig .tc .vmem S1024x1024 .f32 := scM1_0.view

/-- The scoped buffers of the core that this region neither stages through nor accumulates in (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KernelIdealMatmulRunA.lean ====
/-
  The matrix-product kernel's body run whole on staging buffers, in the first case (the contraction coordinate is 0: the accumulator is cleared, then added to; nothing is stored into the result window).
  The statement carries, as its first two components, the lists of stores the result window's staging buffer and the
  accumulator end with.
-/
import proofs.«153967_j84550726189331_1_alg».proof.Proof.KernelIdealMatmulShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the result window's staging buffer and in the accumulator, as lists of pieces (last
    first), with the proof that on whole staging buffers — the inputs' at their contents, the result's at contents handed back untouched,
    the accumulator at anything — the body runs to the continuation holding the inputs' as they were and each
    written buffer with its pieces written. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KernelIdealMatmulRunB.lean ====
/-
  The matrix-product kernel's body run whole on staging buffers, in the middle case (the contraction coordinate is 1 or 2: the accumulator is added to; nothing is stored into the result window).
  The statement carries, as its first two components, the lists of stores the result window's staging buffer and the
  accumulator end with.
-/
import proofs.«153967_j84550726189331_1_alg».proof.Proof.KernelIdealMatmulRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the result window's staging buffer and in the accumulator, as lists of pieces (last
    first), with the proof that on whole staging buffers — the inputs' at their contents, the result's at contents handed back untouched,
    the accumulator at what the point before left — the body runs to the continuation holding the inputs' as they were and each
    written buffer with its pieces written. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KernelIdealMatmulRunC.lean ====
/-
  The matrix-product kernel's body run whole on staging buffers, in the last case (the contraction coordinate is 3: the accumulator is added to, and the accumulator plus the bias is stored into the result window).
  The statement carries, as its first two components, the lists of stores the result window's staging buffer and the
  accumulator end with.
-/
import proofs.«153967_j84550726189331_1_alg».proof.Proof.KernelIdealMatmulRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the result window's staging buffer and in the accumulator, as lists of pieces (last
    first), with the proof that on whole staging buffers — the inputs' at their contents, the result's at anything,
    the accumulator at what the point before left — the body runs to the continuation holding the inputs' as they were and each
    written buffer with its pieces written. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KernelIdealMatmulRegion.lean ====
/-
  The second kernel region (the tiled matrix product) on one core, at any contents `V` of the core's buffers on entry:
  what the accumulator and the result window's staging buffer hold after each point, the region's proof data with the
  accumulator carried from point to point in its invariant, and the body obligation.
-/
import proofs.«153967_j84550726189331_1_alg».proof.Proof.KernelIdealMatmulRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: the run's pieces read back -/

/-- The first case stores nothing into the result window (idle there, and not written back): a placeholder nothing consults. -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- The first case's stores into the accumulator (the clearing, then the sum) cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What the first case leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- The middle case stores nothing into the result window either. -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What the middle case leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- The last case's one store into the result window covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y
/-- What the last case leaves in the result window's staging buffer. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y
/-- What the last case leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- After the body at position `n`: the result window's staging buffer and the accumulator — the case the closed forms
    select at `n`, run at the point's staging buffers and input blocks, the accumulator entering at what position
    `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the other scoped buffers at anything, the accumulator at what the point before left in it, and the
    generator register at some state. -/
def PhiS (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(others1 c ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The proof data -/

/-- The region's proof data on core `c`: the arrays as the region finds them; after the body at point `t` each
    input's buffer at its block and the result's at `outsAt1`'s first component; the invariant `PhiS`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in; the
    invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd HS0 Hg]
        · isplitl [Ha Hb Hc Hd HS0]
          · unfold others1
            isplitl [Ha Hb Hc Hd]
            · isplitl [Ha]; · iexact Ha
              isplitl [Hb]; · iexact Hb
              isplitl [Hc]; · iexact Hc
              iexact Hd
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HR, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others1
  iintro ⟨⟨⟨Ha, Hb, Hc, Hd⟩, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KernelIdealRun.lean ====
/-
  The whole program run on every core: the host lines before the kernels (the input recast as a matrix and narrowed), the
  quantiser region, the matrix-product region, and the host line after them (the result recast to the input's shape),
  composed in order. Stated here: what every unscoped buffer holds at each boundary, as a fold from the launch memory —
  a host stretch applies its operations, a region leaves each of its arrays at what its write-backs made of it and
  every other buffer as it found it —, and the run: every weakly fair execution terminates, and the final memory holds
  the last boundary's contents in every unscoped buffer.
-/
import proofs.«153967_j84550726189331_1_alg».proof.Proof.KernelIdealQuantRegion
import proofs.«153967_j84550726189331_1_alg».proof.Proof.KernelIdealMatmulRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host lines before the kernels (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host line behind the kernels: the program's end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of the program on
    the TensorCores terminates, nothing faulting, and in every final state every unscoped buffer holds the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KernelIdealFrame.lean ====
/-
  The frame: no host line writes an argument array and no region writes one back (the weight and the bias are inputs of
  a region, the input array is read by a host line only), so the fold that gives every buffer's contents at the
  program's end walks back, at each argument, to the launch memory.
-/
import proofs.«153967_j84550726189331_1_alg».proof.Proof.KernelIdealRun
import proofs.«153967_j84550726189331_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input array ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ Gen.hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ Gen.hostOps0_writes (by decide)
    _ = m ((c : Thread nD τ).loc main_arg0) := rfl

/-- The weight ends as launched: the first region only reads it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ Gen.hostOps0_writes (by decide)
    _ = m ((c : Thread nD τ).loc main_arg1) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ Gen.hostOps2_writes (by decide)
    _ = W2 m ρ c (Proc.devRef .tc main_arg1) := W3_of_ne m ρ c main_arg1 (by decide)
    _ = m ((c : Thread nD τ).loc main_arg1) := W2_main_arg1 m ρ c

/-- The bias at the second region's entry is the launched one, -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ Gen.hostOps0_writes (by decide)
    _ = m ((c : Thread nD τ).loc main_arg2) := rfl

/-- and ends as launched: the second region only reads it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ Gen.hostOps2_writes (by decide)
    _ = W2 m ρ c (Proc.devRef .tc main_arg2) := (W3_arr m ρ c 2).trans (((dat1 (V2 m ρ) c).arrAt_in 2 rfl _).trans (A_eq1 (V2 m ρ) c 2))
    _ = m ((c : Thread nD τ).loc main_arg2) := W2_main_arg2 m ρ c

/-- THE FRAME: every weakly fair execution terminates, nothing faulting, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Hand

end
-- ==== Proof.FrameClaims.lean ====
/-
  The three frame claims and the (empty) idealisation claim. Both kernel programs run to the end on every core with
  their argument arrays unchanged, by the run of their segments; the reference is a line of host operations, whose
  run keeps the arguments; and the idealised kernel program is the kernel program's own text read over the extended
  reals, so there is nothing to state about how it was obtained.
-/
import proofs.«153967_j84550726189331_1_alg».proof.Defs
import proofs.«153967_j84550726189331_1_alg».proof.Proof.Gen.Kernel
import proofs.«153967_j84550726189331_1_alg».proof.Proof.Gen.KernelIdeal
import proofs.«153967_j84550726189331_1_alg».proof.Proof.Gen.ReferenceIdeal
import proofs.«153967_j84550726189331_1_alg».proof.Proof.Gen.ReferenceIdeal.Run
import proofs.«153967_j84550726189331_1_alg».proof.Proof.Gen.Pre_finite_inputs
import proofs.«153967_j84550726189331_1_alg».proof.Proof.KernelFrame
import proofs.«153967_j84550726189331_1_alg».proof.Proof.KernelIdealFrame

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.Spec.lean ====
/-
  The function both programs compute, on the extended reals, written once.

  A weight row of 4096 entries is cut into 32 groups of 128 consecutive entries. Each group has a scale, its largest
  absolute value divided by 7; each entry is divided by the scale (by 1 where the scale is not positive), rounded to the
  nearest integer with ties to even, clamped to [-8, 7], and multiplied by the scale again: the row after a 4-bit
  quantisation and back. The layer's output at (p, s, o) is the inner product of the input row (p, s) with the
  quantised-and-restored weight row o, plus the bias at o.
-/
import Idealize.ShloMosaic.PureOps.Ideal
import Idealize.ShloMosaic.Lib.ValueIdx

noncomputable section

namespace Cert.QLin

open Idealize.ShloMosaic Idealize.ShloMosaic.ValueIdx

/-- The shapes of the input, the weight and the bias. -/
abbrev SX : Shape := ⟨3, ![4, 2048, 4096]⟩
abbrev SW : Shape := ⟨2, ![4096, 4096]⟩
abbrev SB : Shape := ⟨1, ![4096]⟩

/-- Entry `l` of group `g` sits at column `128 g + l` of its row. -/
def col (g : Fin 32) (l : Fin 128) : Fin 4096 := ⟨g.val * 128 + l.val, by omega⟩

/-- The largest absolute value in group `g` of a row: the fold of `max` from -∞ over the group's 128 entries. -/
def amax (row : Fin 4096 → EReal) (g : Fin 32) : EReal :=
  (Finset.univ : Finset (Fin 128)).fold max (Ideal.ofBits .f32 0xFF800000#32)
    fun l => max (row (col g l)) (-(row (col g l)))

/-- The group's scale: its largest absolute value over 7. -/
def scale (row : Fin 4096 → EReal) (g : Fin 32) : EReal :=
  Ideal.div (amax row g) (Ideal.ofBits .f32 0x40E00000#32)

/-- What the entries are divided by: the scale where it is positive, 1 elsewhere. -/
def safe (row : Fin 4096 → EReal) (g : Fin 32) : EReal :=
  Scalar.select (Ideal.cmp .ogt (scale row g) (Ideal.ofBits .f32 0x00000000#32)) (scale row g)
    (Ideal.ofBits .f32 0x3F800000#32)

/-- The entry's code: its quotient by `safe`, rounded to the nearest integer (ties to even) and clamped to [-8, 7]. -/
def code (row : Fin 4096 → EReal) (g : Fin 32) (l : Fin 128) : EReal :=
  min (Ideal.ofBits .f32 0x40E00000#32) (max (Ideal.ofBits .f32 0xC1000000#32)
    (Ideal.liftRound Ideal.roundHalfEven (Ideal.div (row (col g l)) (safe row g))))

/-- The restored entry: the code times the scale. -/
def deq (row : Fin 4096 → EReal) (g : Fin 32) (l : Fin 128) : EReal := code row g l * scale row g

/-- The restored row at a column `d`: group `d / 128`, entry `d % 128`. -/
def Qrow (row : Fin 4096 → EReal) (d : Fin 4096) : EReal :=
  deq row ⟨d.val / 128, by omega⟩ ⟨d.val % 128, Nat.mod_lt _ (by norm_num)⟩

theorem Qrow_col (row : Fin 4096 → EReal) (g : Fin 32) (l : Fin 128) : Qrow row (col g l) = deq row g l := by
  unfold Qrow col
  congr 1 <;> apply Fin.ext <;> simp only <;> omega

/-- Row `o` of a weight matrix. -/
def wrow (w : SW.Idx → EReal) (o : Fin 4096) : Fin 4096 → EReal := fun d => w (ix2 o d)

/-- The layer's output at (p, s, o). -/
def Yat (x : SX.Idx → EReal) (w : SW.Idx → EReal) (b : SB.Idx → EReal) (p : Fin 4) (s : Fin 2048) (o : Fin 4096) : EReal :=
  (∑ d : Fin 4096, x (ix3 p s d) * Qrow (wrow w o) d) + b (ix1 o)

/-- The layer's output as an array. -/
def Y (x : SX.Idx → EReal) (w : SW.Idx → EReal) (b : SB.Idx → EReal) : SX.Idx → EReal :=
  fun i => Yat x w b (i 0) (i 1) (i 2)

theorem Y_ix3 (x : SX.Idx → EReal) (w : SW.Idx → EReal) (b : SB.Idx → EReal) (p : Fin 4) (s : Fin 2048) (o : Fin 4096) :
    Y x w b (ix3 p s o) = Yat x w b p s o := rfl

end Cert.QLin

end
-- ==== Proof.SpecArrays.lean ====
/-
  The arrays the kernel program passes between its stages, as functions of the three arguments: the input recast as a
  matrix of 8192 rows, the weight matrix quantised and restored row by row, and the product of the first with the
  transpose of the second plus the bias along the columns.
-/
import proofs.«153967_j84550726189331_1_alg».proof.Proof.Spec

noncomputable section

namespace Cert.QLin

open Idealize.ShloMosaic Idealize.ShloMosaic.ValueIdx

/-- The shape of the input recast as a matrix, and of the product. -/
abbrev SM : Shape := ⟨2, ![8192, 4096]⟩

/-- The weight matrix with every row quantised and restored. -/
def Qarr (w : SW.Idx → EReal) : SW.Idx → EReal :=
  fun i => Qrow (wrow w ⟨(i 0).val, idx2_lt0 i⟩) ⟨(i 1).val, idx2_lt1 i⟩

theorem Qarr_ix2 (w : SW.Idx → EReal) (o d : Fin 4096) : Qarr w (ix2 o d) = Qrow (wrow w o) d := rfl

/-- The input as a matrix: row `2048 p + s` is the input's row `(p, s)`. -/
def Xmat (x : SX.Idx → EReal) : SM.Idx → EReal :=
  fun i => x (ix3 (⟨(i 0).val / 2048, by have := idx2_lt0 i; omega⟩ : Fin 4) (⟨(i 0).val % 2048, Nat.mod_lt _ (by norm_num)⟩ : Fin 2048)
    (⟨(i 1).val, idx2_lt1 i⟩ : Fin 4096))

theorem Xmat_ix2 (x : SX.Idx → EReal) (p : Fin 4) (s : Fin 2048) (d : Fin 4096) :
    Xmat x (ix2 (⟨p.val * 2048 + s.val, by omega⟩ : Fin 8192) d) = x (ix3 p s d) := by
  unfold Xmat
  congr 1
  have h1 : (p.val * 2048 + s.val) / 2048 = p.val := by omega
  have h2 : (p.val * 2048 + s.val) % 2048 = s.val := by omega
  funext a
  match a with
  | ⟨0, _⟩ => exact Fin.ext h1
  | ⟨1, _⟩ => exact Fin.ext h2
  | ⟨2, _⟩ => rfl

/-- A matrix `a` of 8192 rows times the transpose of a matrix `q` of 4096 rows, plus `b` along the columns. -/
def Ymat (a : SM.Idx → EReal) (q : SW.Idx → EReal) (b : SB.Idx → EReal) : SM.Idx → EReal :=
  fun i => (∑ d : Fin 4096, a (ix2 (⟨(i 0).val, idx2_lt0 i⟩ : Fin 8192) d) * q (ix2 (⟨(i 1).val, idx2_lt1 i⟩ : Fin 4096) d))
    + b (ix1 (⟨(i 1).val, idx2_lt1 i⟩ : Fin 4096))

theorem Ymat_ix2 (a : SM.Idx → EReal) (q : SW.Idx → EReal) (b : SB.Idx → EReal) (p : Fin 8192) (o : Fin 4096) :
    Ymat a q b (ix2 p o) = (∑ d : Fin 4096, a (ix2 p d) * q (ix2 o d)) + b (ix1 o) := rfl

/-- The product of the recast input with the restored weights, read at row `2048 p + s`, is the layer's output at (p, s, ·). -/
theorem Ymat_eq_Yat (x : SX.Idx → EReal) (w : SW.Idx → EReal) (b : SB.Idx → EReal) (p : Fin 4) (s : Fin 2048) (o : Fin 4096) :
    Ymat (Xmat x) (Qarr w) b (ix2 (⟨p.val * 2048 + s.val, by omega⟩ : Fin 8192) o) = Yat x w b p s o := by
  rw [Ymat_ix2]
  unfold Yat
  congr 1
  exact Finset.sum_congr rfl fun d _ => by rw [Xmat_ix2, Qarr_ix2]

end Cert.QLin

end
-- ==== Proof.KernelIdealValue.lean ====
/-
  The kernel program's end value on the extended reals. The host lines recast the input as a matrix of 8192 rows
  (narrowing is the identity here) and recast the product back to the input's shape; the first region leaves the weight
  quantised and restored row by row; the second leaves the product of the matrix with the transpose of that weight,
  plus the bias along the columns. Walking every operand back to the launch memory, the result array is the layer's
  output on the launched arguments: entry (p, s, o) is the inner product of the input row (p, s) with the restored
  weight row o, plus the bias at o.
-/
import proofs.«153967_j84550726189331_1_alg».proof.Proof.KernelIdealFrame
import proofs.«153967_j84550726189331_1_alg».proof.Proof.SpecArrays
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The host lines read at their results (any float instance) -/

section Generic
variable {F : FTy → Type} [FloatOps F]
variable (m : (ℓ : Loc nD τ sig) → Buf (Elt F) ℓ) (ρ : Dev nD → PrngReg)

/-- The program's result is the second region's product recast to the input's shape. -/
theorem W4_main_v4 (c : Dev nD) : W4 m ρ c (Proc.devRef .tc main_v4)
    = shapeCast S4x2048x4096 (W3 m ρ c (Proc.devRef .tc main_v3)) shapeCasts_S8192x4096_S4x2048x4096 := by
  show StableHlo.after hostOps2 (W3 m ρ c) (Proc.devRef .tc main_v4) = _
  generalize W3 m ρ c = X
  after_results
  rfl

/-- The matrix the second region reads: the input recast as a matrix of 8192 rows, then narrowed. -/
theorem W1_main_v1 (c : Dev nD) : W1 m ρ c (Proc.devRef .tc main_v1)
    = truncf .bf16 (shapeCast S8192x4096 (m ((c : Thread nD τ).loc main_arg0)) shapeCasts_S4x2048x4096_S8192x4096)
        bitsLt_bf16_f32 := by
  show StableHlo.after hostOps0 (W0 m ρ c) (Proc.devRef .tc main_v1) = _
  have e : W0 m ρ c (Proc.devRef .tc main_arg0) = m ((c : Thread nD τ).loc main_arg0) := rfl
  rw [← e]
  generalize W0 m ρ c = X
  after_results
  rfl

/-- The weight at the first region's entry is the launched one: no host line before it writes it. -/
theorem W1_main_arg1 (c : Dev nD) : W1 m ρ c (Proc.devRef .tc main_arg1) = m ((c : Thread nD τ).loc main_arg1) :=
  (StableHlo.after_of_writes_sub hostOps0 _ Gen.hostOps0_writes (by decide)).trans rfl

end Generic

/-! ## The two recasts on the extended reals -/

/-- The input recast as a matrix and narrowed (the identity on extended reals): row 2048 p + s is the input's row (p, s). -/
theorem recast_eq_Xmat (x : S4x2048x4096.Idx → EReal) :
    (truncf .bf16 (shapeCast S8192x4096 (x : FVec Ideal S4x2048x4096 .f32) shapeCasts_S4x2048x4096_S8192x4096)
      bitsLt_bf16_f32 : FVec Ideal S8192x4096 .bf16) = Cert.QLin.Xmat x := by
  funext i
  rw [truncf_apply]
  unfold Cert.QLin.Xmat
  exact shapeCast_apply x _ i _ (by
    rw [Shape.rowMajor_val_three, Shape.rowMajor_val_two]
    have h0 := idx2_lt0 i
    have h1 := idx2_lt1 i
    show ((i 0).val / 2048 * 2048 + (i 0).val % 2048) * 4096 + (i 1).val = (i 0).val * 4096 + (i 1).val
    omega)

/-- The product matrix recast to the input's shape is the layer's output: entry (p, s, o) is the matrix's entry at
    row 2048 p + s, column o. -/
theorem recast_Ymat (x : S4x2048x4096.Idx → EReal) (w : S4096x4096.Idx → EReal) (b : S4096.Idx → EReal) :
    shapeCast S4x2048x4096 (Cert.QLin.Ymat (Cert.QLin.Xmat x) (Cert.QLin.Qarr w) b) shapeCasts_S8192x4096_S4x2048x4096
      = Cert.QLin.Y x w b := by
  funext i
  obtain ⟨p, s, o, rfl⟩ : ∃ (p : Fin 4) (s : Fin 2048) (o : Fin 4096), i = ix3 p s o := ⟨i 0, i 1, i 2, eq_ix3 i⟩
  rw [Cert.QLin.Y_ix3, ← Cert.QLin.Ymat_eq_Yat]
  exact shapeCast_apply _ _ _ _ (by
    rw [Shape.rowMajor_val_two, Shape.rowMajor_val_three]
    rfl)

/-! ## The end value -/

/-- THE END VALUE. Given what the two regions leave in their result arrays — the first the weight quantised and
    restored row by row, the second the product of its matrix operand with the transpose of its weight operand plus
    the bias —, the program's result is the layer's output on the launched arguments. -/
theorem value_main_v4
    (hq : ∀ (V : (c : Dev nD) → (b : Ref sig .tc) → Buf (Elt Ideal) ((c : Thread nD τ).loc b)) (c : Dev nD),
      (dat0 (F := Ideal) V c).arrAt 1 cfg0.N = Cert.QLin.Qarr (V c main_arg1))
    (hy : ∀ (V : (c : Dev nD) → (b : Ref sig .tc) → Buf (Elt Ideal) ((c : Thread nD τ).loc b)) (c : Dev nD),
      (dat1 (F := Ideal) V c).arrAt 3 cfg1.N = Cert.QLin.Ymat (V c main_v1) (V c main_v2) (V c main_arg2))
    (m : (ℓ : Loc nD τ sig) → Buf (Elt Ideal) ℓ) (ρ : Dev nD → PrngReg) (c : Dev nD) :
    W4 (F := Ideal) m ρ c (Proc.devRef .tc main_v4)
      = Cert.QLin.Y (m ((c : Thread nD τ).loc main_arg0)) (m ((c : Thread nD τ).loc main_arg1))
          (m ((c : Thread nD τ).loc main_arg2)) := by
  have e1 : V2 m ρ c main_v1 = Cert.QLin.Xmat (m ((c : Thread nD τ).loc main_arg0)) :=
    (W2_of_ne m ρ c main_v1 (by decide)).trans ((W1_main_v1 m ρ c).trans (recast_eq_Xmat _))
  have e2 : V2 m ρ c main_v2 = Cert.QLin.Qarr (m ((c : Thread nD τ).loc main_arg1)) :=
    (W2_arr m ρ c 1).trans ((hq (V1 m ρ) c).trans (congrArg Cert.QLin.Qarr (W1_main_arg1 m ρ c)))
  have e3 : V2 m ρ c main_arg2 = m ((c : Thread nD τ).loc main_arg2) := W2_main_arg2 m ρ c
  have e4 : W3 m ρ c (Proc.devRef .tc main_v3)
      = Cert.QLin.Ymat (Cert.QLin.Xmat (m ((c : Thread nD τ).loc main_arg0)))
          (Cert.QLin.Qarr (m ((c : Thread nD τ).loc main_arg1))) (m ((c : Thread nD τ).loc main_arg2)) := by
    refine (W3_arr m ρ c 3).trans ((hy (V2 m ρ) c).trans ?_)
    rw [e1, e2, e3]
  rw [W4_main_v4, e4]
  exact recast_Ymat _ _ _

end Cert.KernelIdeal.Hand

end
-- ==== Proof.KernelIdealQuantValue.lean ====
/-
  The value the first kernel region (the quantiser) leaves in its result array, on the extended reals.

  The grid has 16 points. At point `t` the body reads the block of weight rows 256 t … 256 t + 255 (all 4096 columns)
  and writes back a block of the same rows of the result. Given that the body's arithmetic restores each row of its
  block as `Cert.QLin.Qrow` of that row (the hypothesis `hpay`), what point `t` writes back is block `t` of ONE
  function of the weight matrix, `Cert.QLin.Qarr`: the block's row `r` is the weight's row `256 t + r`, and `Qrow`
  depends on the row alone. Row `o` of the result lies in the block of point `o / 256`, so the 16 blocks cover the
  array and it ends holding `Qarr` of the weight matrix as the region found it.
-/
import proofs.«153967_j84550726189331_1_alg».proof.Proof.KernelIdealQuantRegion
import proofs.«153967_j84550726189331_1_alg».proof.Proof.SpecArrays
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The zero offsets of the one rectangle the body loads and stores through, spelt as a constant function. -/
theorem zero_offsets0 : (![0, 0] : Fin 2 → Nat) = fun _ => 0 := funext fun a => by fin_cases a <;> rfl

/-- The printed index maps, decided over the 16 points: at point `t` both windows sit at block row `t`, block column 0. -/
theorem rowblock_index0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

variable (V : (c : Dev nD) → (b : Ref sig .tc) → Buf (Elt Ideal) ((c : Thread nD τ).loc b))

/-- The weight's block at point `t` holds, at row `r` of the block, the weight's row `256 t + r`. -/
theorem iblk0_weight_row (c : Dev nD) (t : Fin cfg0.N) (r : Fin 256) (d : Fin 4096) (o : Fin 4096)
    (ho : o.val = 256 * t.val + r.val) :
    (iblk0 V c 0 t : Vec Ideal S256x4096 .f32) (ix2 r d) = (V c main_arg1 : S4096x4096.Idx → Elt Ideal .f32) (ix2 o d) := by
  obtain ⟨e0, e1, -, -⟩ := rowblock_index0 t
  unfold iblk0
  rw [View.read_apply]
  show V c main_arg1 _ = V c main_arg1 _
  congr 1
  funext a
  apply Fin.ext
  match a with
  | ⟨0, _⟩ => show win0_0.index t (0 : Fin 2) * 256 + 1 * r.val = o.val; omega
  | ⟨1, _⟩ => show win0_0.index t (1 : Fin 2) * 4096 + 1 * d.val = d.val; omega

/-- WHAT POINT `t` WRITES BACK: block `t` (256 rows) of the weight matrix quantised and restored row by row. -/
theorem flushed0_1_eq (hpay : ∀ (v0 : Vec Ideal S256x4096 .f32) (r : Fin 256) (d : Fin 4096),
      k0_pay1 v0 (ix2 r d) = Cert.QLin.Qrow (fun d' => v0 (ix2 r d')) d)
    (c : Dev nD) (t : Fin cfg0.N) :
    (dat0 (F := Ideal) V c).flushed 1 t
      = ((cfg0.win 1).blk t).view.read (Elt Ideal) (Cert.QLin.Qarr (V c main_arg1)) := by
  show (cfg0.win 1).cut (grid0.coords t) ((dat0 V c).after 1 t) = _
  rw [after0_1]
  unfold out0_1
  rw [View.canon_unit_zero zero_offsets0]
  simp only [View.ld_unit_zero (S := S256x4096) zero_offsets0]
  obtain ⟨-, -, e2, e3⟩ := rowblock_index0 t
  funext j
  obtain ⟨r, d, rfl⟩ : ∃ (r : Fin 256) (d : Fin 4096), j = ix2 r d := ⟨j 0, j 1, eq_ix2 j⟩
  have ht : t.val < 16 := Nat.lt_of_lt_of_eq t.isLt N_0
  show k0_pay1 (iblk0 V c 0 t) (ix2 r d) = Cert.QLin.Qarr (V c main_arg1) (((cfg0.win 1).blk t).view.emb (ix2 r d))
  rw [hpay]
  have hemb : ((cfg0.win 1).blk t).view.emb (ix2 r d) = (ix2 (⟨256 * t.val + r.val, by omega⟩ : Fin 4096) d : S4096x4096.Idx) := by
    funext a
    apply Fin.ext
    match a with
    | ⟨0, _⟩ => show win0_1.index t (0 : Fin 2) * 256 + 1 * r.val = 256 * t.val + r.val; omega
    | ⟨1, _⟩ => show win0_1.index t (1 : Fin 2) * 4096 + 1 * d.val = d.val; omega
  rw [hemb, Cert.QLin.Qarr_ix2]
  refine congrArg (fun row => Cert.QLin.Qrow row d) (funext fun d' => ?_)
  exact iblk0_weight_row V c t r d' _ rfl

/-- An index of the result array is in point `t`'s block iff each coordinate is in the block's range on its axis. -/
theorem mem_rowblock0_1 (t : Fin cfg0.N) (i : S4096x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v2).slice (win0_1.rect t)).set ↔ _
  rw [View.set_slice_whole, Rect.mem_set_unit]
  exact Iff.rfl

/-- Every index of the result array is in some point's block: row `o` is in the block of point `o / 256`. -/
theorem covered0_1 (i : S4096x4096.Idx) :
    ∃ t : Fin cfg0.N, (cfg0.win 1).flush t = true ∧ i ∈ ((cfg0.win 1).blk t).view.set := by
  have hi0 : (i 0).val < 4096 := idx2_lt0 i
  have hi1 : (i 1).val < 4096 := idx2_lt1 i
  have hN : cfg0.N = 16 := N_0
  let t : Fin cfg0.N := ⟨(i 0).val / 256, by rw [hN]; omega⟩
  obtain ⟨-, -, e2, e3⟩ := rowblock_index0 t
  have htv : t.val = (i 0).val / 256 := rfl
  refine ⟨t, flush0_1 t, ?_⟩
  rw [mem_rowblock0_1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- THE RESULT ARRAY after the first region's run: the weight matrix with every row quantised and restored. -/
theorem final0 (hpay : ∀ (v0 : Vec Ideal S256x4096 .f32) (r : Fin 256) (d : Fin 4096),
      k0_pay1 v0 (ix2 r d) = Cert.QLin.Qrow (fun d' => v0 (ix2 r d')) d)
    (V : (c : Dev nD) → (b : Ref sig .tc) → Buf (Elt Ideal) ((c : Thread nD τ).loc b)) (c : Dev nD) :
    (dat0 (F := Ideal) V c).arrAt 1 cfg0.N = Cert.QLin.Qarr (V c main_arg1) :=
  (dat0 (F := Ideal) V c).arrAt_eq_of_cover 1 (Cert.QLin.Qarr (V c main_arg1))
    (fun t _ => flushed0_1_eq V hpay c t) covered0_1

end Cert.KernelIdeal.Hand

end
-- ==== Proof.KernelIdealMatmulValuePieces.lean ====
/-
  The tiled matrix product's body, case by case, as arithmetic on blocks: what each case's stores leave in the
  accumulator and in the result window's staging buffer, written with the body's three pure terms — the zero block,
  "accumulator plus the input block times the transposed weight block", and "accumulator plus the bias row".

  At a point whose contraction coordinate is 0 the accumulator is first cleared and the product added to the cleared
  block; at the middle coordinates the product is added to what the accumulator held; at the last coordinate the same,
  and the result block is the new accumulator plus the bias row.
-/
import proofs.«153967_j84550726189331_1_alg».proof.Proof.KernelIdealMatmulRegion
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- Offsets (0, 0): a store or load at them through a whole block is of the whole block. -/
theorem hz1 : (![0, 0] : Fin 2 → Nat) = fun _ => 0 := funext fun a => by fin_cases a <;> rfl
/-- The same for a block of one axis. -/
theorem hz1' : (![0] : Fin 1 → Nat) = fun _ => 0 := funext fun a => by fin_cases a; rfl

/-- Contraction coordinate 0: the accumulator ends at the product added to the zero block. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1024 .f32) :
    sout1_A_0 c i arg3 harg3 arg4 harg4 arg5 harg5 arg6 harg6 arg7 harg7 hc0 hc1 x0 x1 x2 = k1_pay2 k1_pay1 x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- A middle contraction coordinate: the product is added to what the accumulator held. -/
theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1024 .f32) (xs0 : Vec F S1024x1024 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz1]
  simp only [View.readAt_eq_ld, harg3.read_unread, harg4.read_unread, harg7.read_unread, View.ld_unit_zero (S := S1024x1024) hz1]

/-- The last contraction coordinate: the accumulator as at a middle one, -/
theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz1]
  simp only [View.readAt_eq_ld, harg3.read_unread, harg4.read_unread, harg7.read_unread, View.ld_unit_zero (S := S1024x1024) hz1]

/-- and the result block is that new accumulator plus the bias row. -/
theorem out1_C_3_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1024 .f32) (xs0 : Vec F S1024x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz1, View.readCov_unit_zero (S := S1024x1024) _ hz1]
  simp only [View.readAt_eq_ld, harg3.read_unread, harg4.read_unread, harg5.read_unread, harg7.read_unread,
    View.ld_unit_zero (S := S1024x1024) hz1, View.ld_unit_zero (S := S1024) hz1']

end Cert.KernelIdeal.Hand

end
-- ==== Proof.KernelIdealMatmulValueBlocks.lean ====
/-
  The tiled matrix product's blocks as entries of the arrays. The grid is 8 × 4 × 4; the point at position t in
  row-major order has coordinates (t / 16, t / 4 % 4, t % 4). There the input window shows rows 1024 (t / 16) … and
  columns 1024 (t % 4) … of the input matrix, the weight window rows 1024 (t / 4 % 4) … and columns 1024 (t % 4) … of the
  restored weights, and the bias window entries 1024 (t / 4 % 4) … of the bias. The arrays are read at natural-number
  coordinates (0 outside the array), so that the arithmetic of positions stays on the naturals.
-/
import proofs.«153967_j84550726189331_1_alg».proof.Proof.KernelIdealMatmulShared
import proofs.«153967_j84550726189331_1_alg».proof.Proof.SpecArrays
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.QLin (SM SW SB)

variable (V : (c : Dev nD) → (b : Ref sig .tc) → Buf (Elt Ideal) ((c : Thread nD τ).loc b))

/-- A matrix of 8192 rows and 4096 columns read at natural-number coordinates: 0 outside it. -/
def rdM (A : SM.Idx → EReal) (p d : ℕ) : EReal := if h : p < 8192 ∧ d < 4096 then A (ix2 ⟨p, h.1⟩ ⟨d, h.2⟩) else 0
/-- A matrix of 4096 rows and 4096 columns read the same way. -/
def rdW (B : SW.Idx → EReal) (o d : ℕ) : EReal := if h : o < 4096 ∧ d < 4096 then B (ix2 ⟨o, h.1⟩ ⟨d, h.2⟩) else 0
/-- A vector of 4096 entries read the same way. -/
def rdB (b : SB.Idx → EReal) (o : ℕ) : EReal := if h : o < 4096 then b (ix1 ⟨o, h⟩) else 0

theorem rdM_eq (A : SM.Idx → EReal) (p : Fin 8192) (d : Fin 4096) (P D : ℕ) (hP : P = p.val) (hD : D = d.val) :
    rdM A P D = A (ix2 p d) := by
  subst hP hD; unfold rdM; rw [dif_pos ⟨p.isLt, d.isLt⟩]
theorem rdW_eq (B : SW.Idx → EReal) (o : Fin 4096) (d : Fin 4096) (O D : ℕ) (hO : O = o.val) (hD : D = d.val) :
    rdW B O D = B (ix2 o d) := by
  subst hO hD; unfold rdW; rw [dif_pos ⟨o.isLt, d.isLt⟩]
theorem rdB_eq (b : SB.Idx → EReal) (o : Fin 4096) (O : ℕ) (hO : O = o.val) : rdB b O = b (ix1 o) := by
  subst hO; unfold rdB; rw [dif_pos o.isLt]

/-- The windows' block indices at the point of position t. -/
theorem idx1_all : ∀ t : Fin cfg1.N, win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4 :=
  (by decide +kernel : ∀ t : Fin grid1.N, _)

/-- Entry (r, h) of the input window's block at t is the input matrix at (1024 (t / 16) + r, 1024 (t % 4) + h). -/
theorem iblk1_0_apply (c : Dev nD) (t : Fin cfg1.N) (r h : Fin 1024) (P D : ℕ)
    (hP : P = 1024 * (t.val / 16) + r.val) (hD : D = 1024 * (t.val % 4) + h.val) :
    (iblk1 V c 0 t : Vec Ideal S1024x1024 .bf16) (ix2 r h) = rdM (V c main_v1) P D := by
  have hN : t.val < 128 := lt_of_lt_of_eq t.isLt (show cfg1.N = 128 from N_1)
  obtain ⟨e0, e1, -⟩ := idx1_all t
  unfold rdM
  rw [dif_pos ⟨by omega, by omega⟩]
  unfold iblk1
  rw [View.read_apply]
  show V c main_v1 (((cfg1.win 0).blk t).view.emb (ix2 r h)) = V c main_v1 (ix2 ⟨P, _⟩ ⟨D, _⟩)
  refine congrArg (V c main_v1) (funext fun a => Fin.ext ?_)
  match a with
  | ⟨0, _⟩ => show win1_0.index t (0 : Fin 2) * 1024 + 1 * r.val = P; rw [e0, hP]; omega
  | ⟨1, _⟩ => show win1_0.index t (1 : Fin 2) * 1024 + 1 * h.val = D; rw [e1, hD]; omega

/-- Entry (o, h) of the weight window's block at t is the restored weights at (1024 (t / 4 % 4) + o, 1024 (t % 4) + h). -/
theorem iblk1_1_apply (c : Dev nD) (t : Fin cfg1.N) (o h : Fin 1024) (O D : ℕ)
    (hO : O = 1024 * (t.val / 4 % 4) + o.val) (hD : D = 1024 * (t.val % 4) + h.val) :
    (iblk1 V c 1 t : Vec Ideal S1024x1024 .bf16) (ix2 o h) = rdW (V c main_v2) O D := by
  have hN : t.val < 128 := lt_of_lt_of_eq t.isLt (show cfg1.N = 128 from N_1)
  obtain ⟨-, -, e0, e1, -⟩ := idx1_all t
  unfold rdW
  rw [dif_pos ⟨by omega, by omega⟩]
  unfold iblk1
  rw [View.read_apply]
  show V c main_v2 (((cfg1.win 1).blk t).view.emb (ix2 o h)) = V c main_v2 (ix2 ⟨O, _⟩ ⟨D, _⟩)
  refine congrArg (V c main_v2) (funext fun a => Fin.ext ?_)
  match a with
  | ⟨0, _⟩ => show win1_1.index t (0 : Fin 2) * 1024 + 1 * o.val = O; rw [e0, hO]; omega
  | ⟨1, _⟩ => show win1_1.index t (1 : Fin 2) * 1024 + 1 * h.val = D; rw [e1, hD]; omega

/-- Entry o of the bias window's block at t is the bias at 1024 (t / 4 % 4) + o. -/
theorem iblk1_2_apply (c : Dev nD) (t : Fin cfg1.N) (o : Fin 1024) (O : ℕ) (hO : O = 1024 * (t.val / 4 % 4) + o.val) :
    (iblk1 V c 2 t : Vec Ideal S1024 .f32) (ix1 o) = rdB (V c main_arg2) O := by
  have hN : t.val < 128 := lt_of_lt_of_eq t.isLt (show cfg1.N = 128 from N_1)
  obtain ⟨-, -, -, -, e0, -⟩ := idx1_all t
  unfold rdB
  rw [dif_pos (by omega)]
  unfold iblk1
  rw [View.read_apply]
  show V c main_arg2 (((cfg1.win 2).blk t).view.emb (ix1 o)) = V c main_arg2 (ix1 ⟨O, _⟩)
  refine congrArg (V c main_arg2) (funext fun a => Fin.ext ?_)
  match a with
  | ⟨0, _⟩ => show win1_2.index t (0 : Fin 1) * 1024 + 1 * o.val = O; rw [e0, hO]; omega

end Cert.KernelIdeal.Hand

end
-- ==== Proof.KernelIdealMatmulCover.lean ====
/-
  The second kernel region's result array after the run, from what each writing point writes back.

  The result [8192, 4096] is cut into 8 × 4 blocks of [1024, 1024]; the grid is 8 × 4 × 4, its points numbered in
  row-major order, so the point t = 16 i + 4 j + k works on block (i, j) = (t / 16, t / 4 % 4), and the block is
  written back exactly at k = 3. Every index (p, o) of the array therefore lies in the block of the writing point
  16 (p / 1024) + 4 (o / 1024) + 3: the written blocks cover the array, and if each writing point writes its block of
  one array G, the array ends holding G.
-/
import proofs.«153967_j84550726189331_1_alg».proof.Proof.KernelIdealMatmulRegion
import proofs.«153967_j84550726189331_1_alg».proof.Proof.SpecArrays
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The result window's block index at the point t, decided over the grid: (t / 16, t / 4 % 4). -/
theorem idx1_3 : ∀ t : Fin cfg1.N, win1_3.index t (0 : Fin 2) = t.val / 16 ∧ win1_3.index t (1 : Fin 2) = t.val / 4 % 4 :=
  (by decide +kernel : ∀ t : Fin grid1.N, win1_3.index t (0 : Fin 2) = t.val / 16 ∧ win1_3.index t (1 : Fin 2) = t.val / 4 % 4)

/-- An index of the result array is in point t's block iff each coordinate is in the block's range on its axis. -/
theorem mem_blk1_3 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every index (p, o) of the result array lies in the block of the writing point 16 (p / 1024) + 4 (o / 1024) + 3. -/
theorem cover1_3 (i : S8192x4096.Idx) :
    ∃ t : Fin cfg1.N, (cfg1.win 3).flush t = true ∧ i ∈ ((cfg1.win 3).blk t).view.set := by
  have hN : cfg1.N = 128 := N_1
  have hi0 : (i 0).val < 8192 := (i 0).isLt
  have hi1 : (i 1).val < 4096 := (i 1).isLt
  have hlt : 16 * ((i 0).val / 1024) + 4 * ((i 1).val / 1024) + 3 < cfg1.N := by rw [hN]; omega
  obtain ⟨e0, e1⟩ := idx1_3 ⟨16 * ((i 0).val / 1024) + 4 * ((i 1).val / 1024) + 3, hlt⟩
  refine ⟨⟨16 * ((i 0).val / 1024) + 4 * ((i 1).val / 1024) + 3, hlt⟩, (flush1_3 _).mpr (by show (16 * ((i 0).val / 1024) + 4 * ((i 1).val / 1024) + 3) % 4 = 3; omega), ?_⟩
  rw [mem_blk1_3]
  intro a
  match a with
  | ⟨0, _⟩ =>
    show win1_3.index ⟨16 * ((i 0).val / 1024) + 4 * ((i 1).val / 1024) + 3, hlt⟩ (0 : Fin 2) * 1024 ≤ (i 0).val ∧ (i 0).val < win1_3.index ⟨16 * ((i 0).val / 1024) + 4 * ((i 1).val / 1024) + 3, hlt⟩ (0 : Fin 2) * 1024 + 1024
    rw [e0]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win1_3.index ⟨16 * ((i 0).val / 1024) + 4 * ((i 1).val / 1024) + 3, hlt⟩ (1 : Fin 2) * 1024 ≤ (i 1).val ∧ (i 1).val < win1_3.index ⟨16 * ((i 0).val / 1024) + 4 * ((i 1).val / 1024) + 3, hlt⟩ (1 : Fin 2) * 1024 + 1024
    rw [e1]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- If every writing point writes back its block of one array G, the result array ends holding G. -/
theorem arr_of_flushed (V : (c : Dev nD) → (b : Ref sig .tc) → Buf (Elt Ideal) ((c : Thread nD τ).loc b)) (c : Dev nD)
    (G : Buf (Elt Ideal) ((cfg1.win 3).arr.view.loc (c : Thread nD τ)))
    (hfl : ∀ t : Fin cfg1.N, t.val % 4 = 3 → (dat1 (F := Ideal) V c).flushed 3 t = ((cfg1.win 3).blk t).view.read (Elt Ideal) G) :
    (dat1 (F := Ideal) V c).arrAt 3 cfg1.N = G :=
  (dat1 (F := Ideal) V c).arrAt_eq_of_cover 3 G (fun t hf => hfl t ((flush1_3 t).mp hf)) cover1_3

end Cert.KernelIdeal.Hand

end
-- ==== Proof.PayMatmul.lean ====
/-
  The matmul kernel's three stored values read at one entry, on the extended reals: the accumulator is started at
  zero; one K step adds to the accumulator entry (r, c) the inner product of row r of the input block with row c of
  the weight block (both operands are contracted along their second axis: x times the transpose of w); the last
  step adds the bias entry c to every row.
-/
import proofs.«153967_j84550726189331_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The accumulator's first value: zero everywhere. -/
theorem pay1_apply (r c : Fin 1024) : k1_pay1 (F := Ideal) (ix2 r c) = 0 := by
  unfold k1_pay1
  simp only [shapeCast_self]
  exact Ideal.ofBits_zero_f32

/-- The last step: the accumulator entry plus the bias of its column. -/
theorem pay3_apply (v16 : Vec Ideal S1024x1024 .f32) (v17 : Vec Ideal S1024 .f32) (r c : Fin 1024) :
    k1_pay3 v16 v17 (ix2 r c) = v16 (ix2 r c) + v17 (ix1 c) := by
  unfold k1_pay3
  show v16 (ix2 r c) + broadcastTo S1024x1024 (shapeCast S1x1024 v17 shapeCasts_S1024_S1x1024)
    broadcasts_S1x1024_S1024x1024 (ix2 r c) = _
  rw [broadcastTo_1b_ab_apply, shapeCast_a_1a_apply]

/-- On the non-contracted axis the left operand's index is the output's row. -/
theorem lhs0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- On the non-contracted axis the right operand's index is the output's column. -/
theorem rhs0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- One K step: the accumulator entry plus the inner product of the two operands' rows. -/
theorem pay2_apply (v3 : Vec Ideal S1024x1024 .f32) (v4 v6 : Vec Ideal S1024x1024 .bf16) (r c : Fin 1024) :
    k1_pay2 v3 v4 v6 (ix2 r c) = v3 (ix2 r c) + ∑ h : Fin 1024, v4 (ix2 r h) * v6 (ix2 c h) := by
  unfold k1_pay2
  simp only [shapeCast_self]
  show v3 (ix2 r c) + FloatOps.matmul (F := Ideal) dot_S1024x1024_S1024x1024_S1024x1024_1_1_0_0_n_n none
    (v4 : FVec Ideal S1024x1024 .bf16) (v6 : FVec Ideal S1024x1024 .bf16)
    (constant S1024x1024 .f32 0x00000000#32) (ix2 r c) = _
  rw [Ideal.matmul_constant_zero_apply,
    ← Equiv.sum_comp (contrEquiv1 dot_S1024x1024_S1024x1024_S1024x1024_1_1_0_0_n_n 1024 rfl rfl).symm]
  refine congrArg (v3 (ix2 r c) + ·) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 r c)
      ((contrEquiv1 dot_S1024x1024_S1024x1024_S1024x1024_1_1_0_0_n_n 1024 rfl rfl).symm k) = ix2 r k :=
    funext fun a => Fin.ext (by
      match a with
      | ⟨0, _⟩ => exact lhs0 _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 r c)
      ((contrEquiv1 dot_S1024x1024_S1024x1024_S1024x1024_1_1_0_0_n_n 1024 rfl rfl).symm k) = ix2 c k :=
    funext fun a => Fin.ext (by
      match a with
      | ⟨0, _⟩ => exact rhs0 _ _
      | ⟨1, _⟩ => exact (dot_S1024x1024_S1024x1024_S1024x1024_1_1_0_0_n_n.rhsIdx_val_of_single rfl _ _).trans hk)
  rw [el, er]

end Cert.KernelIdeal.Pay

end
-- ==== Proof.LibLayoutReads.lean ====
/-
  Layout operations and one-axis reductions read at an index given by coordinates, for the shapes a normalisation
  over the middle axis of a rank-3 array meets when the reduced axis is kept as a unit axis: unit axes added or dropped by a shape cast
  (in the middle and at the end, not only in front), a column, a slab or a vector broadcast over a rank-3 array,
  one row or one column cut from a matrix, and a sum or a maximum over axis 1 of a rank-3 array read as the
  `Fin`-indexed sum or fold over that axis's coordinates. Every lemma is over arbitrary extents and an arbitrary
  element type; the indices are written with `ix1 … ix4`.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutReads

open Idealize.ShloMosaic Idealize.ShloMosaic.ValueIdx

variable {α : Type}

/-! ## One more pointwise operation at an index -/

/-- A reciprocal square root of extended reals at an index is that of the element. -/
theorem rsqrt_apply {s : Shape} {φ : FTy} (x : FVec Ideal s φ) (i : s.Idx) : rsqrt x i = Ideal.rsqrt (x i) := rfl

/-! ## Unit axes added or dropped by a shape cast -/

/-- A `[1, a, b, 1]` array cast to `[a, b]` reads, at `(i, j)`, the operand at `(0, i, j, 0)`. -/
theorem shapeCast_1ab1_ab_apply {a b : ℕ} (x : (⟨4, ![1, a, b, 1]⟩ : Shape).Idx → α)
    (h : (⟨4, ![1, a, b, 1]⟩ : Shape).ShapeCasts ⟨2, ![a, b]⟩) (i : Fin a) (j : Fin b) :
    shapeCast ⟨2, ![a, b]⟩ x h (ix2 i j) = x (ix4 (0 : Fin 1) i j (0 : Fin 1)) :=
  shapeCast_apply x h _ _ (by
    rw [Shape.rowMajor_val_four, Shape.rowMajor_val_two]
    show ((0 * a + i.val) * b + j.val) * 1 + 0 = i.val * b + j.val
    rw [Nat.zero_mul, Nat.zero_add, Nat.mul_one, Nat.add_zero])

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    simp only [hu, hv, Nat.zero_mul, Nat.zero_add])

/-- An `[a, c]` array cast to `[a, 1, c]` (a reduction's result with the reduced axis kept) reads, at `(i, u, k)`,
    the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a, c]` array cast to `[1, 1, a, c]` reads, at `(u, v, i, k)`, the operand at `(i, k)`. -/
theorem shapeCast_ac_11ac_apply {a c : ℕ} (x : (⟨2, ![a, c]⟩ : Shape).Idx → α)
    (h : (⟨2, ![a, c]⟩ : Shape).ShapeCasts ⟨4, ![1, 1, a, c]⟩) (u v : Fin 1) (i : Fin a) (k : Fin c) :
    shapeCast ⟨4, ![1, 1, a, c]⟩ x h (ix4 u v i k) = x (ix2 i k) :=
  shapeCast_apply x h _ _ (by
    have hu : u.val = 0 := by omega
    have hv : v.val = 0 := by omega
    rw [Shape.rowMajor_val_two, Shape.rowMajor_val_four]
    show i.val * c + k.val = ((u.val * 1 + v.val) * a + i.val) * c + k.val
    simp only [hu, hv, Nat.zero_mul, Nat.zero_add])

/-! ## One row or one column cut from a matrix -/

/-- Row `o` of a matrix, cut as a `[1, c]` slab, reads at `(u, e)` the matrix at `(o, e)`. -/
theorem slice2_row_apply {n c : ℕ} (o : ℕ) (X : (⟨2, ![n, c]⟩ : Shape).Idx → α)
    (h : (⟨2, ![n, c]⟩ : Shape).Slices ![o, 0] ⟨2, ![1, c]⟩) (u : Fin 1) (e : Fin c) (k : Fin n) (hk : k.val = o) :
    extractStridedSlice ⟨2, ![1, c]⟩ ![o, 0] X h (ix2 u e) = X (ix2 k e) :=
  slice2_axis0_apply o X h u e k (by have := u.isLt; omega)

/-- Column `o` of a matrix, cut as an `[a, 1]` column, reads at `(i, u)` the matrix at `(i, o)`. -/
theorem slice2_col_apply {a b : ℕ} (o : ℕ) (X : (⟨2, ![a, b]⟩ : Shape).Idx → α)
    (h : (⟨2, ![a, b]⟩ : Shape).Slices ![0, o] ⟨2, ![a, 1]⟩) (i : Fin a) (u : Fin 1) (k : Fin b) (hk : k.val = o) :
    extractStridedSlice ⟨2, ![a, 1]⟩ ![0, o] X h (ix2 i u) = X (ix2 i k) :=
  slice2_axis1_apply o X h i u k (by have := u.isLt; omega)

/-! ## Broadcasts along unit axes -/

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array (a reduction over axis 1 with the axis kept) broadcast to `[a, b, c]` reads, at
    `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` vector broadcast to `[a, b, c]` reads, at `(i, j, k)`, the vector at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[1, b, 1]` vector along the middle axis broadcast to `[a, b, c]` reads, at `(i, j, k)`, the vector at
    `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-! ## A reduction over axis 1 of a rank-3 array -/

/-- The index `(i, j, k)` of an `[a, b, c]` array is the index `(i, k)` of the array reduced over axis 1 with the
    coordinate `j` put back on that axis. -/
theorem lift_axis1_ix2 {a b c : ℕ} (h : (⟨3, ![a, b, c]⟩ : Shape).Reduces [1] ⟨2, ![a, c]⟩) (i : Fin a) (k : Fin c)
    (j : Fin b) : h.lift (ix2 i k) j = ix3 i j k := by
  funext ax
  match ax with
  | ⟨0, _⟩ => exact Fin.ext rfl
  | ⟨1, _⟩ => exact Fin.ext rfl
  | ⟨2, _⟩ => exact Fin.ext rfl

/-- A sum over axis 1 of an `[a, b, c]` array of extended reals, read at `(i, k)`, is the sum over `j` of the array
    at `(i, j, k)`. -/
theorem multiReduction_add_axis1_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_axis1_ix2 h i k j))

/-- A maximum over axis 1 of an `[a, b, c]` array of extended reals, read at `(i, k)`, is the fold of `max`, from the
    accumulator's value, over `j` of the array at `(i, j, k)`. -/
theorem multiReduction_maximumf_axis1_apply {a b c : ℕ} {φ : FTy} (src : FVec Ideal ⟨3, ![a, b, c]⟩ φ)
    (acc : BitVec φ.bits) (h : (⟨3, ![a, b, c]⟩ : Shape).Reduces [1] ⟨2, ![a, c]⟩) (hφ : FKind.Formats φ)
    (hacc : acc = FKind.maximumf.neutral φ hφ) (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_axis1_ix2 h i k j)))

end Cert.LayoutReads

end
-- ==== Proof.PayQuant.lean ====
/-
  The quantisation kernel's stored value read at one entry, on the extended reals. A block holds 256 weight rows of
  4096 entries; the kernel views each row as 32 groups of 128 consecutive entries, takes each group's largest
  absolute value, divides it by 7 to get the group's scale, divides every entry by the scale (by 1 where the scale is
  not positive), rounds to the nearest integer with ties to even, clamps to [-8, 7], multiplies by the scale again, and
  views the result as rows of 4096 entries. So the stored entry at row r, column 128 g + l is the restored entry l of
  group g of row r.
-/
import proofs.«153967_j84550726189331_1_alg».proof.Proof.Gen.KernelIdeal.Skeleton
import proofs.«153967_j84550726189331_1_alg».proof.Proof.Spec
import proofs.«153967_j84550726189331_1_alg».proof.Proof.LibLayoutReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The layout steps -/

/-- A row of 4096 entries viewed as 32 groups of 128: entry l of group g of row r is the row's entry 128 g + l. -/
theorem groups_apply {α : Type} (v : S256x4096.Idx → α) (r : Fin 256) (g : Fin 32) (l : Fin 128) :
    shapeCast S256x32x128 v shapeCasts_S256x4096_S256x32x128 (ix3 r g l) = v (ix2 r (Cert.QLin.col g l)) :=
  shapeCast_apply v _ _ _ (by
    rw [Shape.rowMajor_val_two, Shape.rowMajor_val_three]
    show r.val * 4096 + (g.val * 128 + l.val) = (r.val * 32 + g.val) * 128 + l.val
    omega)

/-- The groups viewed as one row again: the row's entry 128 g + l is entry l of group g. -/
theorem row_apply {α : Type} (w : S256x32x128.Idx → α) (r : Fin 256) (g : Fin 32) (l : Fin 128) :
    shapeCast S256x4096 w shapeCasts_S256x32x128_S256x4096 (ix2 r (Cert.QLin.col g l)) = w (ix3 r g l) :=
  shapeCast_apply w _ _ _ (by
    rw [Shape.rowMajor_val_three, Shape.rowMajor_val_two]
    show (r.val * 32 + g.val) * 128 + l.val = r.val * 4096 + (g.val * 128 + l.val)
    omega)

/-- The index (i, j) of an array reduced over its last axis, with the coordinate k put back, is (i, j, k). -/
theorem lift_axis2_ix2 {a b c : ℕ} (h : (⟨3, ![a, b, c]⟩ : Shape).Reduces [2] ⟨2, ![a, b]⟩) (i : Fin a) (j : Fin b)
    (k : Fin c) : h.lift (ix2 i j) k = ix3 i j k := by
  funext ax
  match ax with
  | ⟨0, _⟩ => exact Fin.ext rfl
  | ⟨1, _⟩ => exact Fin.ext rfl
  | ⟨2, _⟩ => exact Fin.ext rfl

/-- The maximum over a group: the fold of max, from -∞, over the group's 128 entries. -/
theorem groupMax_apply (src : FVec Ideal S256x32x128 .f32) (hφ : FKind.Formats .f32)
    (hacc : (0xFF800000#32 : BitVec FTy.f32.bits) = 0xFF800000#32) (r : Fin 256) (g : Fin 32) :
    multiReduction .maximumf [2] S256x32 src 0xFF800000#32 reduces_S256x32x128_S256x32 hφ hacc (ix2 r g)
      = (Finset.univ : Finset (Fin 128)).fold max (Ideal.ofBits .f32 0xFF800000#32) (fun l => src (ix3 r g l)) :=
  (Ideal.multiReduction_maximumf_single src 0xFF800000#32 reduces_S256x32x128_S256x32 hφ hacc (ix2 r g)).trans
    (congrArg (fun f => (Finset.univ : Finset (Fin 128)).fold max (Ideal.ofBits .f32 0xFF800000#32) f)
      (funext fun l => congrArg src (lift_axis2_ix2 reduces_S256x32x128_S256x32 r g l)))

/-! ## Two more pointwise operations at an index -/

/-- An absolute value at an index is the larger of the element and its negation. -/
theorem absf_apply {s : Shape} {φ : FTy} (a : FVec Ideal s φ) (i : s.Idx) : absf a i = max (a i) (-(a i)) := rfl
/-- A rounding to the nearest integer, ties to even, at an index is that of the element. -/
theorem roundeven_apply {s : Shape} {φ : FTy} (a : FVec Ideal s φ) (i : s.Idx) :
    roundeven a i = Ideal.liftRound Ideal.roundHalfEven (a i) := rfl

/-! ## The stored entry -/

/-- At column 128 g + l of row r the kernel stores the restored entry l of group g of the row. -/
theorem pay0_col (v0 : Vec Ideal S256x4096 .f32) (r : Fin 256) (g : Fin 32) (l : Fin 128) :
    k0_pay1 v0 (ix2 r (Cert.QLin.col g l)) = Cert.QLin.deq (fun d' => v0 (ix2 r d')) g l := by
  unfold k0_pay1
  simp only [truncf_apply, row_apply, mulf_apply, minimumf_apply, maximumf_apply, broadcast_apply,
    roundeven_apply, divf_apply, groups_apply, Cert.LayoutReads.broadcastTo_ab1_abc_apply, select_apply, cmpf_apply,
    Cert.LayoutReads.shapeCast_ab_ab1_apply, groupMax_apply, absf_apply]
  rw [groupMax_apply]
  simp only [absf_apply, groups_apply]
  rfl

/-- Every column is 128 g + l for its group g and its place l in the group: the stored entry at any column of row r is
    the restored row at that column. -/
theorem pay0_apply (v0 : Vec Ideal S256x4096 .f32) (r : Fin 256) (d : Fin 4096) :
    k0_pay1 v0 (ix2 r d) = Cert.QLin.Qrow (fun d' => v0 (ix2 r d')) d := by
  obtain ⟨g, l, rfl⟩ : ∃ (g : Fin 32) (l : Fin 128), d = Cert.QLin.col g l :=
    ⟨⟨d.val / 128, by omega⟩, ⟨d.val % 128, Nat.mod_lt _ (by norm_num)⟩,
      Fin.ext (by show d.val = d.val / 128 * 128 + d.val % 128; omega)⟩
  exact (pay0_col v0 r g l).trans (Cert.QLin.Qrow_col _ g l).symm

end Cert.KernelIdeal.Pay

end
-- ==== Proof.PaySum.lean ====
/-
  A sum over 4096 columns taken in 4 consecutive blocks of 1024: the blocks' sums add up to the whole sum.
-/
import Idealize.ShloMosaic.PureOps.Ideal

noncomputable section

namespace Cert.KernelIdeal.Pay

open scoped BigOperators

/-- Column d = 1024 k + h belongs to block k at place h; summing block by block is summing over every column. -/
theorem sum_blocks (f : Fin 4096 → EReal) :
    ∑ k : Fin 4, ∑ h : Fin 1024, f ⟨k.val * 1024 + h.val, by omega⟩ = ∑ d : Fin 4096, f d := by
  have e : (∑ d : Fin 4096, f d) = ∑ p : Fin 4 × Fin 1024, f (finProdFinEquiv p) :=
    (Equiv.sum_comp (finProdFinEquiv : Fin 4 × Fin 1024 ≃ Fin (4 * 1024)) f).symm
  rw [e, Fintype.sum_prod_type]
  refine Finset.sum_congr rfl fun k _ => Finset.sum_congr rfl fun h _ => congrArg f (Fin.ext ?_)
  show k.val * 1024 + h.val = h.val + 1024 * k.val
  omega

end Cert.KernelIdeal.Pay

end
-- ==== Proof.Payloads.lean ====
/-
  The kernels' stored values read at one entry, on the extended reals, gathered: the quantisation kernel's restored
  weight entry, the matmul kernel's three accumulator steps, and the sum over 4096 columns taken in 4 blocks of 1024.
-/
import proofs.«153967_j84550726189331_1_alg».proof.Proof.PayMatmul
import proofs.«153967_j84550726189331_1_alg».proof.Proof.PayQuant
import proofs.«153967_j84550726189331_1_alg».proof.Proof.PaySum
-- ==== Proof.PaySlabs.lean ====
/-
  The accumulator after its four steps, started at zero: the four blocks' sums added one after the other are the sum
  over all 4096 columns.
-/
import proofs.«153967_j84550726189331_1_alg».proof.Proof.PaySum

noncomputable section

namespace Cert.KernelIdeal.Pay

open scoped BigOperators

/-- Zero plus the sums over columns 0–1023, 1024–2047, 2048–3071 and 3072–4095, added in that order, is the sum over
    every column. -/
theorem four_slabs (f : Fin 4096 → EReal) :
    (((0 + ∑ h : Fin 1024, f ⟨0 * 1024 + h.val, by omega⟩) + ∑ h : Fin 1024, f ⟨1 * 1024 + h.val, by omega⟩)
        + ∑ h : Fin 1024, f ⟨2 * 1024 + h.val, by omega⟩) + ∑ h : Fin 1024, f ⟨3 * 1024 + h.val, by omega⟩
      = ∑ d : Fin 4096, f d := by
  rw [← sum_blocks f, Fin.sum_univ_four, zero_add]
  rfl

end Cert.KernelIdeal.Pay

end
-- ==== Proof.KernelIdealMatmulUnrolled.lean ====
/-
  The second kernel region's accumulator unrolled over the four contraction steps, on the extended reals.

  The grid's last coordinate is the contraction step, 0 to 3; position t of the grid has step t % 4. At step 0 the
  body clears the accumulator and adds the step's contribution; at steps 1, 2 and 3 it adds the step's contribution to
  what the point before left; at step 3 it also stores the accumulator plus the bias into the result window. A step's
  contribution at (r, c') is the inner product of row r of the point's input block with row c' of its weight block.
  Given that each piece the body leaves is the corresponding stored value (the four hypotheses), the result window's
  staging buffer after a point of step 3 holds, at (r, c'), zero plus the four points' contributions in order, plus the
  bias block's entry c'.
-/
import proofs.«153967_j84550726189331_1_alg».proof.Proof.KernelIdealMatmulRegion
import proofs.«153967_j84550726189331_1_alg».proof.Proof.Payloads
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The inner product of row r of one matrix with row c' of another (the second is contracted along its rows: a product
    with a transpose). -/
def rowDot (a b : Vec Ideal S1024x1024 .bf16) (r c' : Fin 1024) : EReal :=
  ∑ h : Fin 1024, a (ix2 r h) * b (ix2 c' h)

/-- One contraction step's contribution at (r, c'): row r of the point's input block times row c' of its weight block. -/
def slab (c : Dev nD) (t : Fin cfg1.N) (r c' : Fin 1024) : EReal :=
  rowDot (iblk1 V c 0 t) (iblk1 V c 1 t) r c'

/-- The buffers after a position do not depend on how the position is spelt. -/
theorem outsAt1_congr (c : Dev nD) (n n' : ℕ) (h : n = n') (hn : n < cfg1.N) (hn' : n' < cfg1.N) :
    outsAt1 V c n hn = outsAt1 V c n' hn' := by
  subst h; rfl

/-- A step's contribution from the two blocks read entry by entry. -/
theorem slab_of_reads (c : Dev nD) (t : Fin cfg1.N) (r c' : Fin 1024) (a b : Fin 1024 → EReal)
    (ha : ∀ h, (iblk1 V c 0 t : Vec Ideal S1024x1024 .bf16) (ix2 r h) = a h)
    (hb : ∀ h, (iblk1 V c 1 t : Vec Ideal S1024x1024 .bf16) (ix2 c' h) = b h) :
    slab V c t r c' = ∑ h : Fin 1024, a h * b h := by
  unfold slab rowDot
  exact Finset.sum_congr rfl fun h _ => by rw [ha h, hb h]

/-- At a point whose contraction coordinate is 0 the accumulator is cleared and takes the point's contribution. -/
theorem acc_first (hA : ∀ (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 x1 : Vec Ideal S1024x1024 .bf16) (x2 : Vec Ideal S1024 .f32),
      sout1_A_0 c i arg3 harg3 arg4 harg4 arg5 harg5 arg6 harg6 arg7 harg7 hc0 hc1 x0 x1 x2 = k1_pay2 k1_pay1 x0 x1)
    (c : Dev nD) (t : Fin cfg1.N) (h0 : t.val % 4 = 0) (r c' : Fin 1024) :
    (outsAt1 (F := Ideal) V c t.val t.isLt).2 (ix2 r c') = 0 + slab V c t r c' := by
  have h1 : ¬t.val % 4 = 3 := by omega
  rw [outsAt1_A V c t h0 h1]
  dsimp only
  refine (congrFun (hA c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) (ix2 r c')).trans ?_
  refine (Cert.KernelIdeal.Pay.pay2_apply (k1_pay1 (F := Ideal)) (iblk1 V c 0 t) (iblk1 V c 1 t) r c').trans ?_
  rw [Cert.KernelIdeal.Pay.pay1_apply]
  rfl

/-- At any other point the accumulator is what the point before (`p`) left plus the point's contribution. -/
theorem acc_step (hB : ∀ (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 x1 : Vec Ideal S1024x1024 .bf16) (x2 : Vec Ideal S1024 .f32) (xs0 : Vec Ideal S1024x1024 .f32),
      sout1_B_0 c i arg3 harg3 arg4 harg4 arg5 harg5 arg6 harg6 arg7 harg7 hc0 hc1 x0 x1 x2 xs0 = k1_pay2 xs0 x0 x1)
    (hC : ∀ (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 x1 : Vec Ideal S1024x1024 .bf16) (x2 : Vec Ideal S1024 .f32) (xs0 : Vec Ideal S1024x1024 .f32),
      sout1_C_0 c i arg3 harg3 arg4 harg4 arg5 harg5 arg6 harg6 arg7 harg7 hc0 hc1 x0 x1 x2 xs0 = k1_pay2 xs0 x0 x1)
    (c : Dev nD) (t p : Fin cfg1.N) (h0 : ¬t.val % 4 = 0) (hp : p.val = t.val - 1) (r c' : Fin 1024) :
    (outsAt1 (F := Ideal) V c t.val t.isLt).2 (ix2 r c')
      = (outsAt1 (F := Ideal) V c p.val p.isLt).2 (ix2 r c') + slab V c t r c' := by
  have hprev : outsAt1 V c (t.val - 1) (Nat.lt_of_le_of_lt (Nat.sub_le _ _) t.isLt) = outsAt1 V c p.val p.isLt :=
    outsAt1_congr V c _ _ hp.symm _ _
  by_cases h1 : t.val % 4 = 3
  · rw [outsAt1_C V c t h0 h1]
    dsimp only
    rw [hprev]
    refine (congrFun (hC c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c p.val p.isLt).2) (ix2 r c')).trans ?_
    exact Cert.KernelIdeal.Pay.pay2_apply (outsAt1 V c p.val p.isLt).2 (iblk1 V c 0 t) (iblk1 V c 1 t) r c'
  · rw [outsAt1_B V c t h0 h1]
    dsimp only
    rw [hprev]
    refine (congrFun (hB c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c p.val p.isLt).2) (ix2 r c')).trans ?_
    exact Cert.KernelIdeal.Pay.pay2_apply (outsAt1 V c p.val p.isLt).2 (iblk1 V c 0 t) (iblk1 V c 1 t) r c'

/-- THE RESULT WINDOW AFTER A LAST CONTRACTION STEP, UNROLLED: at a point whose contraction coordinate is 3 the body
    stores the accumulator plus the bias; the accumulator was cleared three points earlier and has since taken the four
    points' contributions in order. -/
theorem out_last_unrolled (hA : ∀ (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 x1 : Vec Ideal S1024x1024 .bf16) (x2 : Vec Ideal S1024 .f32),
      sout1_A_0 c i arg3 harg3 arg4 harg4 arg5 harg5 arg6 harg6 arg7 harg7 hc0 hc1 x0 x1 x2 = k1_pay2 k1_pay1 x0 x1)
    (hB : ∀ (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 x1 : Vec Ideal S1024x1024 .bf16) (x2 : Vec Ideal S1024 .f32) (xs0 : Vec Ideal S1024x1024 .f32),
      sout1_B_0 c i arg3 harg3 arg4 harg4 arg5 harg5 arg6 harg6 arg7 harg7 hc0 hc1 x0 x1 x2 xs0 = k1_pay2 xs0 x0 x1)
    (hC : ∀ (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 x1 : Vec Ideal S1024x1024 .bf16) (x2 : Vec Ideal S1024 .f32) (xs0 : Vec Ideal S1024x1024 .f32),
      sout1_C_0 c i arg3 harg3 arg4 harg4 arg5 harg5 arg6 harg6 arg7 harg7 hc0 hc1 x0 x1 x2 xs0 = k1_pay2 xs0 x0 x1)
    (hC3 : ∀ (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 x1 : Vec Ideal S1024x1024 .bf16) (x2 : Vec Ideal S1024 .f32) (xs0 : Vec Ideal S1024x1024 .f32),
      out1_C_3 c i arg3 harg3 arg4 harg4 arg5 harg5 arg6 harg6 arg7 harg7 hc0 hc1 x0 x1 x2 xs0 = k1_pay3 (k1_pay2 xs0 x0 x1) x2)
    (V : (c : Dev nD) → (b : Ref sig .tc) → Buf (Elt Ideal) ((c : Thread nD τ).loc b)) (c : Dev nD) (t : Fin cfg1.N)
    (ht : t.val % 4 = 3) (r c' : Fin 1024) :
    (outsAt1 (F := Ideal) V c t.val t.isLt).1 (ix2 r c')
      = ((((0 + slab V c ⟨t.val - 3, Nat.lt_of_le_of_lt (Nat.sub_le _ _) t.isLt⟩ r c') + slab V c ⟨t.val - 2, Nat.lt_of_le_of_lt (Nat.sub_le _ _) t.isLt⟩ r c')
            + slab V c ⟨t.val - 1, Nat.lt_of_le_of_lt (Nat.sub_le _ _) t.isLt⟩ r c') + slab V c t r c')
          + (iblk1 V c 2 t : Vec Ideal S1024 .f32) (ix1 c') := by
  have h0 : ¬t.val % 4 = 0 := by omega
  have hb : ∀ k, t.val - k < cfg1.N := fun k => Nat.lt_of_le_of_lt (Nat.sub_le _ _) t.isLt
  have e1 : (outsAt1 (F := Ideal) V c (t.val - 1) (hb 1)).2 (ix2 r c')
      = (outsAt1 (F := Ideal) V c (t.val - 2) (hb 2)).2 (ix2 r c') + slab V c ⟨t.val - 1, hb 1⟩ r c' :=
    acc_step V hB hC c ⟨t.val - 1, hb 1⟩ ⟨t.val - 2, hb 2⟩ (by show ¬(t.val - 1) % 4 = 0; omega)
      (by show t.val - 2 = t.val - 1 - 1; omega) r c'
  have e2 : (outsAt1 (F := Ideal) V c (t.val - 2) (hb 2)).2 (ix2 r c')
      = (outsAt1 (F := Ideal) V c (t.val - 3) (hb 3)).2 (ix2 r c') + slab V c ⟨t.val - 2, hb 2⟩ r c' :=
    acc_step V hB hC c ⟨t.val - 2, hb 2⟩ ⟨t.val - 3, hb 3⟩ (by show ¬(t.val - 2) % 4 = 0; omega)
      (by show t.val - 3 = t.val - 2 - 1; omega) r c'
  have e3 : (outsAt1 (F := Ideal) V c (t.val - 3) (hb 3)).2 (ix2 r c') = 0 + slab V c ⟨t.val - 3, hb 3⟩ r c' :=
    acc_first V hA c ⟨t.val - 3, hb 3⟩ (by show (t.val - 3) % 4 = 0; omega) r c'
  rw [outsAt1_C V c t h0 ht]
  dsimp only
  refine (congrFun (hC3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr ht) (iblk1 V c 0 t) (iblk1 V c 1 t) (iblk1 V c 2 t) (outsAt1 V c (t.val - 1) (hb 1)).2) (ix2 r c')).trans ?_
  refine (Cert.KernelIdeal.Pay.pay3_apply (k1_pay2 (outsAt1 V c (t.val - 1) (hb 1)).2 (iblk1 V c 0 t) (iblk1 V c 1 t)) (iblk1 V c 2 t) r c').trans ?_
  rw [Cert.KernelIdeal.Pay.pay2_apply (outsAt1 V c (t.val - 1) (hb 1)).2 (iblk1 V c 0 t) (iblk1 V c 1 t) r c', e1, e2, e3]
  rfl

end Cert.KernelIdeal.Hand

end
-- ==== Proof.KernelIdealMatmulValue.lean ====
/-
  What the tiled matrix product leaves in the result array: the product of the input matrix with the transposed
  restored weights, plus the bias along the columns.

  The block (i, j) of the result is written back once, at the point (i, j, 3). By then the accumulator has been
  cleared at (i, j, 0) and has received, at k = 0, 1, 2, 3, the product of the input's block (i, k) with the transpose
  of the weights' block (j, k): entry (r, o) of the block holds 0 plus four sums over 1024 consecutive columns, which
  together run over all 4096 columns of row 1024 i + r of the input and row 1024 j + o of the weights; the bias entry
  1024 j + o is added on top. That is the entry (1024 i + r, 1024 j + o) of the product array, and the written blocks
  cover the result.
-/
import proofs.«153967_j84550726189331_1_alg».proof.Proof.KernelIdealMatmulValuePieces
import proofs.«153967_j84550726189331_1_alg».proof.Proof.KernelIdealMatmulValueBlocks
import proofs.«153967_j84550726189331_1_alg».proof.Proof.KernelIdealMatmulCover
import proofs.«153967_j84550726189331_1_alg».proof.Proof.Payloads
import proofs.«153967_j84550726189331_1_alg».proof.Proof.PaySlabs
import proofs.«153967_j84550726189331_1_alg».proof.Proof.KernelIdealMatmulUnrolled

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open Cert.QLin (SM SW SB Ymat Ymat_ix2)
open Cert.KernelIdeal.Pay

variable (V : (c : Dev nD) → (b : Ref sig .tc) → Buf (Elt Ideal) ((c : Thread nD τ).loc b))

/-- Row r of one block times row o of another: the sum of the products along their 1024 columns. -/
def rowProd (x0 x1 : S1024x1024.Idx → EReal) (r o : Fin 1024) : EReal := ∑ h : Fin 1024, x0 (ix2 r h) * x1 (ix2 o h)
/-- Entry o of a bias block. -/
def biasAt (x2 : S1024.Idx → EReal) (o : Fin 1024) : EReal := x2 (ix1 o)
/-- The product of the entries in column d of row P of one matrix and row O of another. -/
def prodAt (A : SM.Idx → EReal) (B : SW.Idx → EReal) (P : Fin 8192) (O : Fin 4096) (d : Fin 4096) : EReal :=
  A (ix2 P d) * B (ix2 O d)

/-- What the result window's staging buffer holds when its block is written back: entry (r, o) is 0 plus the four
    points' row products, plus the bias entry o of the point's bias block. -/
theorem out_last_sums (c : Dev nD) (t : Fin cfg1.N) (ht : t.val % 4 = 3) (r o : Fin 1024) :
    ((outsAt1 V c t.val t.isLt).1 : S1024x1024.Idx → EReal) (ix2 r o)
      = ((((0 + rowProd (iblk1 V c 0 ⟨t.val - 3, Nat.lt_of_le_of_lt (Nat.sub_le _ _) t.isLt⟩) (iblk1 V c 1 ⟨t.val - 3, Nat.lt_of_le_of_lt (Nat.sub_le _ _) t.isLt⟩) r o)
          + rowProd (iblk1 V c 0 ⟨t.val - 2, Nat.lt_of_le_of_lt (Nat.sub_le _ _) t.isLt⟩) (iblk1 V c 1 ⟨t.val - 2, Nat.lt_of_le_of_lt (Nat.sub_le _ _) t.isLt⟩) r o)
          + rowProd (iblk1 V c 0 ⟨t.val - 1, Nat.lt_of_le_of_lt (Nat.sub_le _ _) t.isLt⟩) (iblk1 V c 1 ⟨t.val - 1, Nat.lt_of_le_of_lt (Nat.sub_le _ _) t.isLt⟩) r o)
          + rowProd (iblk1 V c 0 t) (iblk1 V c 1 t) r o)
        + biasAt (iblk1 V c 2 t) o := by
  refine (out_last_unrolled (sout1_A_0_eq (F := Ideal)) (sout1_B_0_eq (F := Ideal)) (sout1_C_0_eq (F := Ideal))
    (out1_C_3_eq (F := Ideal)) V c t ht r o).trans ?_
  unfold slab rowDot rowProd biasAt
  rfl

/-- The write-back moves the whole block: the part it cuts out, read at (r, o), is the block's entry (r, o). -/
theorem cut1_3_apply {α : Type} (t : Fin cfg1.N) (X : (cfg1.win 3).block.Idx → α) (r o : Fin 1024) :
    (cfg1.win 3).cut (grid1.coords t) X (ix2 r o) = X (ix2 r o) :=
  congrArg X (funext fun a => by match a with | ⟨0, _⟩ => rfl | ⟨1, _⟩ => rfl)

/-- One point's row product as a sum of products of array entries: the point t' with t' % 4 = k contributes the
    columns 1024 k … of row P of the input matrix and row O of the restored weights. -/
theorem rowProd_blocks (c : Dev nD) (t' : Fin cfg1.N) (r o : Fin 1024) (P : Fin 8192) (O : Fin 4096) (k : ℕ) (hk : k < 4)
    (hP : P.val = 1024 * (t'.val / 16) + r.val) (hO : O.val = 1024 * (t'.val / 4 % 4) + o.val) (hk' : t'.val % 4 = k) :
    rowProd (iblk1 V c 0 t') (iblk1 V c 1 t') r o
      = ∑ h : Fin 1024, prodAt (V c main_v1) (V c main_v2) P O ⟨k * 1024 + h.val, by omega⟩ := by
  unfold rowProd prodAt
  refine Finset.sum_congr rfl fun h _ => ?_
  rw [iblk1_0_apply V c t' r h P.val (k * 1024 + h.val) hP (by omega),
    iblk1_1_apply V c t' o h O.val (k * 1024 + h.val) hO (by omega),
    rdM_eq _ P ⟨k * 1024 + h.val, by omega⟩ _ _ rfl rfl, rdW_eq _ O ⟨k * 1024 + h.val, by omega⟩ _ _ rfl rfl]

/-- What a writing point writes back is its block of the product array. -/
theorem flushed1_3 (c : Dev nD) (t : Fin cfg1.N) (ht : t.val % 4 = 3) :
    (dat1 V c).flushed 3 t
      = ((cfg1.win 3).blk t).view.read (Elt Ideal) (Ymat (V c main_v1) (V c main_v2) (V c main_arg2)) := by
  have hN : t.val < 128 := lt_of_lt_of_eq t.isLt (show cfg1.N = 128 from N_1)
  obtain ⟨e0, e1⟩ := idx1_3 t
  show (cfg1.win 3).cut (grid1.coords t) ((dat1 V c).after 3 t) = _
  rw [after1_3]
  funext y
  obtain ⟨r, o, rfl⟩ : ∃ (r o : Fin 1024), y = ix2 r o := ⟨y 0, y 1, eq_ix2 y⟩
  refine (cut1_3_apply t _ r o).trans ?_
  refine (out_last_sums V c t ht r o).trans ?_
  rw [View.read_apply]
  have hP : 1024 * (t.val / 16) + r.val < 8192 := by omega
  have hO : 1024 * (t.val / 4 % 4) + o.val < 4096 := by omega
  have eemb : ((cfg1.win 3).blk t).view.emb (ix2 r o)
      = (ix2 (⟨1024 * (t.val / 16) + r.val, hP⟩ : Fin 8192) (⟨1024 * (t.val / 4 % 4) + o.val, hO⟩ : Fin 4096) : SM.Idx) :=
    funext fun a => Fin.ext (by
      match a with
      | ⟨0, _⟩ => show win1_3.index t (0 : Fin 2) * 1024 + 1 * r.val = 1024 * (t.val / 16) + r.val; rw [e0]; omega
      | ⟨1, _⟩ => show win1_3.index t (1 : Fin 2) * 1024 + 1 * o.val = 1024 * (t.val / 4 % 4) + o.val; rw [e1]; omega)
  show _ = Ymat (V c main_v1) (V c main_v2) (V c main_arg2) (((cfg1.win 3).blk t).view.emb (ix2 r o))
  rw [eemb, Ymat_ix2]
  have s0 := rowProd_blocks V c ⟨t.val - 3, Nat.lt_of_le_of_lt (Nat.sub_le _ _) t.isLt⟩ r o ⟨1024 * (t.val / 16) + r.val, hP⟩ ⟨1024 * (t.val / 4 % 4) + o.val, hO⟩ 0 (by omega)
    (show 1024 * (t.val / 16) + r.val = 1024 * ((t.val - 3) / 16) + r.val by omega)
    (show 1024 * (t.val / 4 % 4) + o.val = 1024 * ((t.val - 3) / 4 % 4) + o.val by omega)
    (show (t.val - 3) % 4 = 0 by omega)
  have s1 := rowProd_blocks V c ⟨t.val - 2, Nat.lt_of_le_of_lt (Nat.sub_le _ _) t.isLt⟩ r o ⟨1024 * (t.val / 16) + r.val, hP⟩ ⟨1024 * (t.val / 4 % 4) + o.val, hO⟩ 1 (by omega)
    (show 1024 * (t.val / 16) + r.val = 1024 * ((t.val - 2) / 16) + r.val by omega)
    (show 1024 * (t.val / 4 % 4) + o.val = 1024 * ((t.val - 2) / 4 % 4) + o.val by omega)
    (show (t.val - 2) % 4 = 1 by omega)
  have s2 := rowProd_blocks V c ⟨t.val - 1, Nat.lt_of_le_of_lt (Nat.sub_le _ _) t.isLt⟩ r o ⟨1024 * (t.val / 16) + r.val, hP⟩ ⟨1024 * (t.val / 4 % 4) + o.val, hO⟩ 2 (by omega)
    (show 1024 * (t.val / 16) + r.val = 1024 * ((t.val - 1) / 16) + r.val by omega)
    (show 1024 * (t.val / 4 % 4) + o.val = 1024 * ((t.val - 1) / 4 % 4) + o.val by omega)
    (show (t.val - 1) % 4 = 2 by omega)
  have s3 := rowProd_blocks V c t r o ⟨1024 * (t.val / 16) + r.val, hP⟩ ⟨1024 * (t.val / 4 % 4) + o.val, hO⟩ 3 (by omega) rfl rfl ht
  have sb : biasAt (iblk1 V c 2 t) o = (V c main_arg2 : SB.Idx → EReal) (ix1 ⟨1024 * (t.val / 4 % 4) + o.val, hO⟩) := by
    unfold biasAt
    rw [iblk1_2_apply V c t o _ rfl, rdB_eq _ ⟨1024 * (t.val / 4 % 4) + o.val, hO⟩ _ rfl]
  rw [s0, s1, s2, s3, sb]
  exact congrArg (· + _) (four_slabs (prodAt (V c main_v1) (V c main_v2) ⟨1024 * (t.val / 16) + r.val, hP⟩ ⟨1024 * (t.val / 4 % 4) + o.val, hO⟩))

/-- The result array after the region: the product of the input matrix with the transposed restored weights, plus
    the bias along the columns. -/
theorem final1 (c : Dev nD) :
    (dat1 (F := Ideal) V c).arrAt 3 cfg1.N = Ymat (V c main_v1) (V c main_v2) (V c main_arg2) :=
  arr_of_flushed V c _ (fun t ht => flushed1_3 V c t ht)

end Cert.KernelIdeal.Hand

end
-- ==== Proof.RefResult.lean ====
/-
  The reference program's result, read index by index, is the layer's output.

  The program reshapes the weight to [4096, 32, 128], takes each group's largest absolute value (a max-reduce over the
  last axis from -∞), divides it by 7, and from there computes the clamped rounded quotient times the scale, reshapes
  back, forms weight + (restored - weight), contracts the input with it over the last axes and adds the bias. Stage by
  stage, at coordinates, each of these is the corresponding piece of the specification; the only step that needs a
  hypothesis is a + (b - a) = b on the extended reals, which holds as soon as a is a real number.
-/
import proofs.«153967_j84550726189331_1_alg».proof.Defs
import proofs.«153967_j84550726189331_1_alg».proof.Proof.Gen.ReferenceIdeal.Run
import proofs.«153967_j84550726189331_1_alg».proof.Proof.Gen.ReferenceIdeal.Read
import proofs.«153967_j84550726189331_1_alg».proof.Proof.Spec

noncomputable section

namespace Cert.ReferenceIdeal.RefValue

open Cert.ReferenceIdeal Cert.ReferenceIdeal.Gen Cert.ReferenceIdeal.Read Cert.QLin
open Idealize.ShloMosaic Idealize.ShloMosaic.ValueIdx

/-! ## The reshape and the max-reduce at coordinates -/

/-- The max-reduce drops the last of the three axes. -/
theorem redu : S4096x32x128.Reduces [2] S4096x32 := by decide

/-- The source index over (o, g) with l on the dropped axis is (o, g, l). -/
theorem lift_eq (o : Fin 4096) (g : Fin 32) (l : Fin 128) :
    redu.lift (ix2 o g) l = ix3 o g l := by
  funext c
  apply Fin.ext
  match c with
  | ⟨0, _⟩ => rfl
  | ⟨1, _⟩ => rfl
  | ⟨2, _⟩ => rfl

/-- Entry (o, g, l) of the reshaped weight is entry (o, 128 g + l) of the weight. -/
theorem idx_v0_ix3 (o : Fin 4096) (g : Fin 32) (l : Fin 128) :
    idx_main_v0 (ix3 o g l) = ix2 o (col g l) := by
  funext a
  apply Fin.ext
  match a with
  | ⟨0, _⟩ =>
    show ((o.val * 32 + g.val) * 128 + l.val) / 4096 = o.val
    omega
  | ⟨1, _⟩ =>
    show ((o.val * 32 + g.val) * 128 + l.val) % 4096 = g.val * 128 + l.val
    omega

theorem v0_at (w : FVec Ideal S4096x4096 .f32) (o : Fin 4096) (g : Fin 32) (l : Fin 128) :
    val_main_v0 (F := Ideal) w (ix3 o g l) = wrow w o (col g l) := by
  rw [val_main_v0_apply, idx_v0_ix3]
  rfl

/-- The max-reduce at (o, g) is the group's largest absolute value: the fold of max from -∞ over the 128 entries. -/
theorem v2_at (w : FVec Ideal S4096x4096 .f32) (o : Fin 4096) (g : Fin 32) :
    val_main_v2 (F := Ideal) w (ix2 o g) = amax (wrow w o) g := by
  unfold val_main_v2
  rw [Host.reduce_eq_fold_single FloatOps.maximumf _ _ reducesTo_S4096x32x128_S4096x32_d2 redu h_S_ (ix2 o g)]
  unfold amax
  show Finset.fold max (Ideal.ofBits .f32 0xFF800000#32) (fun l : Fin 128 => val_main_v1 (F := Ideal) w (redu.lift (ix2 o g) l)) Finset.univ = _
  refine Finset.fold_congr (fun l _ => ?_)
  rw [lift_eq, val_main_v1_apply, v0_at]
  rfl

/-! ## The keepdims column and the broadcasts: index maps at coordinates -/

theorem idx_v3_ix3 (o : Fin 4096) (g : Fin 32) (z : Fin 1) : idx_main_v3 (ix3 o g z) = ix2 o g := by
  funext a
  match a with
  | ⟨0, _⟩ => rfl
  | ⟨1, _⟩ => rfl

theorem idx_v9_ix3 (o : Fin 4096) (g : Fin 32) (l : Fin 128) : idx_main_v9 (ix3 o g l) = ix3 o g (0 : Fin 1) := by
  funext a
  match a with
  | ⟨0, _⟩ => rfl
  | ⟨1, _⟩ => rfl
  | ⟨2, _⟩ => rfl

theorem idx_v13_ix3 (o : Fin 4096) (g : Fin 32) (l : Fin 128) : idx_main_v13 (ix3 o g l) = ix3 o g (0 : Fin 1) := by
  funext a
  match a with
  | ⟨0, _⟩ => rfl
  | ⟨1, _⟩ => rfl
  | ⟨2, _⟩ => rfl

theorem idx_v15_ix2 (o : Fin 4096) (d : Fin 4096) :
    idx_main_v15 (ix2 o d) = ix3 o (⟨d.val / 128, by omega⟩ : Fin 32) (⟨d.val % 128, Nat.mod_lt _ (by norm_num)⟩ : Fin 128) := by
  funext a
  apply Fin.ext
  match a with
  | ⟨0, _⟩ =>
    show (o.val * 4096 + d.val) / 4096 = o.val
    omega
  | ⟨1, _⟩ =>
    show (o.val * 4096 + d.val) / 128 % 32 = d.val / 128
    omega
  | ⟨2, _⟩ =>
    show (o.val * 4096 + d.val) % 128 = d.val % 128
    omega

/-! ## The stages at coordinates -/

/-- The scale column: the group's largest absolute value over 7. -/
theorem v5_at (w : FVec Ideal S4096x4096 .f32) (o : Fin 4096) (g : Fin 32) (z : Fin 1) :
    val_main_v5 (F := Ideal) w (ix3 o g z) = scale (wrow w o) g := by
  rw [val_main_v5_apply, val_main_v3_apply, idx_v3_ix3, v2_at, val_main_v4_apply, val_main_cst_0_apply]
  rfl

/-- The divisor column: the scale where positive, 1 elsewhere. -/
theorem v8_at (w : FVec Ideal S4096x4096 .f32) (o : Fin 4096) (g : Fin 32) (z : Fin 1) :
    val_main_v8 (F := Ideal) w (ix3 o g z) = safe (wrow w o) g := by
  rw [val_main_v8_apply, val_main_v7_apply, v5_at, val_main_v6_apply, val_main_cst_1_apply,
    val_main_call0_v1_apply, val_main_call0_v0_apply, val_main_cst_2_apply]
  rfl

/-- The clamped rounded quotient. -/
theorem v12_at (w : FVec Ideal S4096x4096 .f32) (o : Fin 4096) (g : Fin 32) (l : Fin 128) :
    val_main_v12 (F := Ideal) w (ix3 o g l) = code (wrow w o) g l := by
  rw [val_main_v12_apply, val_main_call2_v4_apply, val_main_call2_v3_apply, val_main_cst_4_apply,
    val_main_call2_v2_apply, val_main_call2_v1_apply, val_main_call2_v0_apply, val_main_cst_3_apply,
    val_main_v11_apply, val_main_v10_apply, v0_at, val_main_v9_apply, idx_v9_ix3, v8_at]
  rfl

/-- The restored entry in the grouped layout. -/
theorem v14_at (w : FVec Ideal S4096x4096 .f32) (o : Fin 4096) (g : Fin 32) (l : Fin 128) :
    val_main_v14 (F := Ideal) w (ix3 o g l) = deq (wrow w o) g l := by
  rw [val_main_v14_apply, v12_at, val_main_v13_apply, idx_v13_ix3, v5_at]
  rfl

/-- The restored entry back in the row layout. -/
theorem v15_at (w : FVec Ideal S4096x4096 .f32) (o d : Fin 4096) :
    val_main_v15 (F := Ideal) w (ix2 o d) = Qrow (wrow w o) d := by
  rw [val_main_v15_apply, idx_v15_ix2, v14_at]
  rfl

/-- On the extended reals a + (b - a) = b as soon as a is a real number. -/
theorem add_sub_cancel_real (r : ℝ) (b : EReal) : (r : EReal) + (b - (r : EReal)) = b := by
  induction b using EReal.rec with
  | bot => simp
  | top => simp
  | coe s => rw [← EReal.coe_sub, ← EReal.coe_add]; congr 1; ring

/-- The weight plus (restored minus weight) is the restored entry where the weight is a real number. -/
theorem v17_at (w : FVec Ideal S4096x4096 .f32) (hw : ∀ i, ∃ r : ℝ, w i = (r : EReal)) (o d : Fin 4096) :
    val_main_v17 (F := Ideal) w (ix2 o d) = Qrow (wrow w o) d := by
  rw [val_main_v17_apply, val_main_v16_apply, v15_at]
  obtain ⟨r, hr⟩ := hw (ix2 o d)
  rw [hr]
  exact add_sub_cancel_real r _

/-! ## The contraction's operands and the bias at coordinates -/

theorem lidx_ix3 (p : Fin 4) (s : Fin 2048) (o k : Fin 4096) : lidx_main_v18 (ix3 p s o) k = ix3 p s k := by
  funext a
  match a with
  | ⟨0, _⟩ => rfl
  | ⟨1, _⟩ => rfl
  | ⟨2, _⟩ => rfl

theorem ridx_ix3 (p : Fin 4) (s : Fin 2048) (o k : Fin 4096) : ridx_main_v18 (ix3 p s o) k = ix2 o k := by
  funext a
  match a with
  | ⟨0, _⟩ => rfl
  | ⟨1, _⟩ => rfl

theorem bias_idx (p : Fin 4) (s : Fin 2048) (o : Fin 4096) : idx_main_v19 (idx_main_v20 (ix3 p s o)) = ix1 o := by
  funext a
  match a with
  | ⟨0, _⟩ => rfl

/-- The reference's result is the layer's output, where every weight entry is a real number. -/
theorem result_eq (x : FVec Ideal S4x2048x4096 .f32) (w : FVec Ideal S4096x4096 .f32) (b : FVec Ideal S4096 .f32)
    (hw : ∀ i, ∃ r : ℝ, w i = (r : EReal)) :
    val_main_v21 (F := Ideal) x w b = Y x w b := by
  funext i
  obtain ⟨p, s, o, rfl⟩ : ∃ (p : Fin 4) (s : Fin 2048) (o : Fin 4096), i = ix3 p s o := ⟨i 0, i 1, i 2, eq_ix3 i⟩
  rw [val_main_v21_apply, val_main_v18_apply, val_main_v20_apply, val_main_v19_apply, bias_idx, Y_ix3]
  unfold Yat
  show (∑ k : Fin 4096, _) + _ = _
  congr 1
  refine Finset.sum_congr rfl fun k _ => ?_
  rw [lidx_ix3, ridx_ix3, v17_at w hw]

end Cert.ReferenceIdeal.RefValue

end
-- ==== Proof.LibFiniteEntry.lean ====
/-
  "The absolute value is below +∞" makes an extended real a real number.

  A test that an array holds finite numbers compares, entry by entry, the absolute value `max v (-v)` with the float
  word `0x7F800000`, which is `+∞` (all exponent bits set, zero fraction, sign clear). An extended real whose absolute
  value is below `⊤` is neither `⊤` (whose absolute value is `⊤`) nor `⊥` (likewise): it is a real number.
-/
import Idealize.ShloMosaic.PureOps.Ideal.Laws

noncomputable section

namespace Cert.FiniteEntry

open Idealize.ShloMosaic

/-- The word the test compares against is `+∞`. -/
theorem inf_word : Ideal.ofBits .f32 0x7F800000#32 = (⊤ : EReal) := by simp [Ideal.ofBits, Ideal.ieee]

/-- An extended real whose absolute value is below `+∞` is a real number. -/
theorem real_of_abs_lt_top (v : EReal) (h : max v (-v) < ⊤) : ∃ r : ℝ, v = r := by
  induction v using EReal.rec with
  | bot => exact absurd h (by simp)
  | coe r => exact ⟨r, rfl⟩
  | top => exact absurd h (by simp)

/-- One entry's test `|v| < +∞` being true (the comparison's bit is 1) makes the entry a real number. -/
theorem real_of_test (v : EReal) (h : Ideal.cmp .olt (max v (-v)) (Ideal.ofBits .f32 0x7F800000#32) = 1#1) :
    ∃ r : ℝ, v = r := by
  rw [inf_word] at h
  refine real_of_abs_lt_top v ?_
  by_contra hn
  simp [Ideal.cmp, hn] at h

end Cert.FiniteEntry

end
-- ==== Proof.RefFinite.lean ====
/-
  From the precondition to "every weight entry is a real number".

  The precondition is the conjunction of three tests, one per argument array, each the and-reduction over the whole array
  of the entrywise comparison |v| < +∞. The conjunction being 1 makes the weight's reduction 1, which makes every
  entry's comparison 1, and an extended real whose absolute value is below +∞ is a real number.
-/
import proofs.«153967_j84550726189331_1_alg».proof.Defs
import proofs.«153967_j84550726189331_1_alg».proof.Proof.Gen.Pre_finite_inputs
import proofs.«153967_j84550726189331_1_alg».proof.Proof.LibFiniteEntry
import Idealize.ShloMosaic.Lib.ReduceAll
import Idealize.ShloMosaic.Lib.ValueIdx
import Idealize.ShloMosaic.Lib.Pipeline.Value

noncomputable section

namespace Cert.ReferenceIdeal.RefValue

open Idealize.ShloMosaic Idealize.ShloMosaic.ValueIdx

/-- Under the precondition every entry of the weight is a real number. -/
theorem weight_real [Cert.Pre_finite_inputs.Facts] (x : FVec Ideal Cert.Pre_finite_inputs.S4x2048x4096 .f32)
    (w : FVec Ideal Cert.Pre_finite_inputs.S4096x4096 .f32) (b : FVec Ideal Cert.Pre_finite_inputs.S4096 .f32)
    (h : Cert.Pre_finite_inputs.fn (F := Ideal) x w b = fun _ => 1#1) : ∀ i, ∃ r : ℝ, w i = (r : EReal) := by
  intro i
  haveI : Subsingleton Cert.Pre_finite_inputs.S_.Idx := ⟨fun a b => funext fun d => d.elim0⟩
  have h0 := congrFun h ix0
  dsimp only [Cert.Pre_finite_inputs.fn] at h0
  obtain ⟨h38, _⟩ := IntOp.andi_eq_one.1 (show IntOp.andi _ _ = 1#1 from h0)
  obtain ⟨_, h7⟩ := IntOp.andi_eq_one.1 (show IntOp.andi _ _ = 1#1 from h38)
  have e := Host.reduce_andi_all _ _ _ _ ix0 h7 i
  have hb : broadcastInDim Cert.Pre_finite_inputs.S4096x4096 ![] Cert.Pre_finite_inputs.Facts.bcast_S_S4096x4096
      (constant (F := Ideal) Cert.Pre_finite_inputs.S_ .f32 0x7F800000#32) i = Ideal.ofBits .f32 0x7F800000#32 :=
    (broadcastInDim_apply _ _ _ i ix0 (fun a => a.elim0)).trans rfl
  have e' : Ideal.cmp .olt (max (w i) (-(w i)))
      (broadcastInDim Cert.Pre_finite_inputs.S4096x4096 ![] Cert.Pre_finite_inputs.Facts.bcast_S_S4096x4096
        (constant (F := Ideal) Cert.Pre_finite_inputs.S_ .f32 0x7F800000#32) i) = 1#1 := e
  rw [hb] at e'
  exact Cert.FiniteEntry.real_of_test (w i) e'

end Cert.ReferenceIdeal.RefValue

end
-- ==== Proof.RefValue.lean ====
/-
  The reference program's result, read index by index.

  The stages at coordinates and the value equation are in RefResult; the step from the precondition to real weight
  entries is in RefFinite; here the program's run is restated with the layer's output as its result.
-/
import proofs.«153967_j84550726189331_1_alg».proof.Defs
import proofs.«153967_j84550726189331_1_alg».proof.Proof.Gen.ReferenceIdeal.Run
import proofs.«153967_j84550726189331_1_alg».proof.Proof.Gen.ReferenceIdeal.Read
import proofs.«153967_j84550726189331_1_alg».proof.Proof.Spec
import proofs.«153967_j84550726189331_1_alg».proof.Proof.RefResult
import proofs.«153967_j84550726189331_1_alg».proof.Proof.RefFinite

noncomputable section

namespace Cert.ReferenceIdeal.RefValue

open Cert.ReferenceIdeal Cert.ReferenceIdeal.Gen Idealize.ShloMosaic Idealize.ShloMosaic.TcCoe Idealize.SL.Sem Idealize.ShloMosaic.StableHlo

/-- From any memory with zero counters whose weight entries are real numbers, every weakly fair execution of the
    reference program terminates with its result at the layer's output of the three argument arrays, and the
    arguments unchanged. -/
theorem ref_run (m' : (ℓ : Loc nD τ sig) → Buf (Elt Ideal) ℓ) (ρ' : Dev nD → PrngReg)
    (hw : ∀ c : Dev nD, ∀ i, ∃ r : ℝ, m' ((c.tc : Thread nD τ).loc main_arg1) i = (r : EReal)) :
    θ_run (defs (F := Ideal)) (onTc (τ := τ) (main (F := Ideal))) ⟨m', fun _ => 0, ρ'⟩ fun r => ∀ c : Dev nD,
      r.2.mem ((c.tc : Thread nD τ).loc main_v21)
          = Cert.QLin.Y (m' ((c.tc : Thread nD τ).loc main_arg0)) (m' ((c.tc : Thread nD τ).loc main_arg1))
              (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono
    (fun _ h c => ⟨(h c).1.trans ((Read.val_main_v21_eq _ _ _).trans (result_eq _ _ _ (hw c))), (h c).2⟩)
    (Cert.ReferenceIdeal.Value.run (F := Ideal) m' ρ')

end Cert.ReferenceIdeal.RefValue

end
-- ==== Proof.RefAgree.lean ====
/-
  The reference's weight entries are real numbers in the setting of the claim between the two programs: the
  precondition holds of the kernel's memory and the two memories agree on the weight.
-/
import proofs.«153967_j84550726189331_1_alg».proof.Defs
import proofs.«153967_j84550726189331_1_alg».proof.Proof.RefFinite

noncomputable section

namespace Cert.ReferenceIdeal.RefValue

open Idealize.ShloMosaic Idealize.ShloMosaic.TcCoe Idealize.SL.Sem

/-- Where the kernel's memory satisfies the precondition and the reference's memory agrees with it on the weight, the
    reference's weight entries are real numbers. -/
theorem weight_real_of_agree [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    ∀ c : Dev Cert.ReferenceIdeal.nD, ∀ i,
      ∃ r : ℝ, m' ((c.tc : Thread Cert.ReferenceIdeal.nD Cert.ReferenceIdeal.τ).loc Cert.ReferenceIdeal.main_arg1) i = (r : EReal) := by
  intro c i
  obtain ⟨r, hr⟩ := weight_real _ _ _ (hpre c) i
  exact ⟨r, (congrFun (hagree c) i).trans hr⟩

end Cert.ReferenceIdeal.RefValue

end
-- ==== Proof.AlgebraicClaim.lean ====
/-
  The two idealised programs compute one function. Over the extended reals the kernel program ends with its result
  array at Y(x, w, b) — the recast input times the transpose of the weights quantised and restored group by group,
  plus the bias — whatever the arguments hold: a change of float format is the identity there, a sum taken slab by
  slab is the whole sum, and an accumulator that starts at zero adds nothing. The reference computes the restored
  weights the same way and then forms w + (wq − w) before the product, which is wq when every weight is a real
  number: that is where the precondition (finite inputs) is used, and the only place.
-/
import proofs.«153967_j84550726189331_1_alg».proof.Defs
import proofs.«153967_j84550726189331_1_alg».proof.Proof.KernelIdealValue
import proofs.«153967_j84550726189331_1_alg».proof.Proof.KernelIdealQuantValue
import proofs.«153967_j84550726189331_1_alg».proof.Proof.KernelIdealMatmulValue
import proofs.«153967_j84550726189331_1_alg».proof.Proof.Payloads
import proofs.«153967_j84550726189331_1_alg».proof.Proof.RefValue
import proofs.«153967_j84550726189331_1_alg».proof.Proof.RefAgree

noncomputable section

namespace Cert.Proof.Claims

open Idealize.ShloMosaic Idealize.ShloMosaic.TcCoe Idealize.SL.Sem

/-- The kernel program's run at the extended reals, with its result array named: Y of the launch contents of the
    three arguments, which end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4)
          = Cert.QLin.Y (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono (fun r h c =>
    ⟨(h c _ (Cert.KernelIdeal.Hand.mem_uc Cert.KernelIdeal.main_v4 (by decide))).trans
        (Cert.KernelIdeal.Hand.value_main_v4 (Cert.KernelIdeal.Hand.final0 Cert.KernelIdeal.Pay.pay0_apply) Cert.KernelIdeal.Hand.final1 m ρ c),
     (h c _ (Cert.KernelIdeal.Hand.mem_uc Cert.KernelIdeal.main_arg0 (by decide))).trans (Cert.KernelIdeal.Hand.W4_main_arg0 m ρ c),
     (h c _ (Cert.KernelIdeal.Hand.mem_uc Cert.KernelIdeal.main_arg1 (by decide))).trans (Cert.KernelIdeal.Hand.W4_main_arg1 m ρ c),
     (h c _ (Cert.KernelIdeal.Hand.mem_uc Cert.KernelIdeal.main_arg2 (by decide))).trans (Cert.KernelIdeal.Hand.W4_main_arg2 m ρ c)⟩)
    (Cert.KernelIdeal.Hand.run_main m ρ)

/-- From memories that agree on the arguments, of which the kernel's holds finite numbers, both programs end with
    the same result array, Y of the arguments. -/
theorem algebraic : Cert.algebraic_KernelIdeal_ReferenceIdeal := by
  intro m ρ m' ρ' hpre hagree
  refine ⟨fun c => Cert.QLin.Y (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    kernel_run m ρ, ?_⟩
  refine (θ_run (Cert.ReferenceIdeal.defs (F := Ideal)) _ _).mono (fun r h c => ⟨?_, (h c).2⟩)
    (Cert.ReferenceIdeal.RefValue.ref_run m' ρ' (Cert.ReferenceIdeal.RefValue.weight_real_of_agree m m' hpre (fun c => (hagree c).2.1)))
  rw [(h c).1, (hagree c).1, (hagree c).2.1, (hagree c).2.2]

end Cert.Proof.Claims

end
-- ==== Proof.lean ====
/-
  The certificate assembled: the witnesses of the three programs' and the precondition's stated side conditions, then
  the five claims — both kernel programs and the reference run to the end with their arguments unchanged
  (Proof/FrameClaims.lean, over the run of each kernel program's segments in Proof/KernelRun.lean and
  Proof/KernelIdealRun.lean), the idealisation rewrote nothing, and over the extended reals the kernel program and
  the reference end with one result array (Proof/AlgebraicClaim.lean): the input times the transpose of the weights
  quantised to sixteen levels per group of 128 and restored, plus the bias (Proof/Spec.lean).
-/
import proofs.«153967_j84550726189331_1_alg».proof.Defs
import proofs.«153967_j84550726189331_1_alg».proof.Proof.Gen.Kernel
import proofs.«153967_j84550726189331_1_alg».proof.Proof.Gen.Kernel.Skeleton
import proofs.«153967_j84550726189331_1_alg».proof.Proof.Gen.Kernel.Launch
import proofs.«153967_j84550726189331_1_alg».proof.Proof.Gen.Kernel.Regions
import proofs.«153967_j84550726189331_1_alg».proof.Proof.Gen.Kernel.Points
import proofs.«153967_j84550726189331_1_alg».proof.Proof.Gen.KernelIdeal
import proofs.«153967_j84550726189331_1_alg».proof.Proof.Gen.KernelIdeal.Skeleton
import proofs.«153967_j84550726189331_1_alg».proof.Proof.Gen.KernelIdeal.Launch
import proofs.«153967_j84550726189331_1_alg».proof.Proof.Gen.KernelIdeal.Regions
import proofs.«153967_j84550726189331_1_alg».proof.Proof.Gen.KernelIdeal.Points
import proofs.«153967_j84550726189331_1_alg».proof.Proof.Gen.ReferenceIdeal
import proofs.«153967_j84550726189331_1_alg».proof.Proof.Gen.Pre_finite_inputs
import proofs.«153967_j84550726189331_1_alg».proof.Proof.FrameClaims
import proofs.«153967_j84550726189331_1_alg».proof.Proof.AlgebraicClaim
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
